-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x2048x1024 .f32) (main_arg1 : FVec F S1024x1024 .f32) (main_arg2 : FVec F S1024x1024 .f32) (main_arg3 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x2048x1024 : Shape := ⟨3, ![4, 2048, 1024]⟩
abbrev S1024x1024 : Shape := ⟨2, ![1024, 1024]⟩
abbrev S1x2048x1024 : Shape := ⟨3, ![1, 2048, 1024]⟩
abbrev S1x512x1024 : Shape := ⟨3, ![1, 512, 1024]⟩
abbrev S2048x1024 : Shape := ⟨2, ![2048, 1024]⟩
abbrev S512x1 : Shape := ⟨2, ![512, 1]⟩
abbrev S512x1024 : Shape := ⟨2, ![512, 1024]⟩
abbrev S512x512 : Shape := ⟨2, ![512, 512]⟩
abbrev S512 : Shape := ⟨1, ![512]⟩

abbrev nBuf : Space → Nat
  | .hbm => 9
  | .vmem => 12
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x2048x1024, .bf16⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S4x2048x1024, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x512x1024, .f32⟩
  | .local _ .vmem, ⟨6, _⟩ => ⟨S1x512x1024, .f32⟩
  | .local _ .vmem, ⟨7, _⟩ => ⟨S2048x1024, .bf16⟩
  | .local _ .vmem, ⟨8, _⟩ => ⟨S2048x1024, .bf16⟩
  | .local _ .vmem, ⟨9, _⟩ => ⟨S512x1, .f32⟩
  | .local _ .vmem, ⟨10, _⟩ => ⟨S512x1, .f32⟩
  | .local _ .vmem, ⟨11, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 3 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0_1 : Index := 0#32
  ![0, v5.toNat, 0]
def k0_mult2 : BitVec 32 :=
  let c0_i32_14 : BitVec 32 := 0#32
  let c512_i32_15 : BitVec 32 := 512#32
  let v26 : BitVec 32 := Scalar.muli c0_i32_14 c512_i32_15
  v26
def k0_off2 (c0_i32_14 : BitVec 32) : Fin 2 → Nat :=
  let c512_i32_15 : BitVec 32 := 512#32
  let v26 : BitVec 32 := Scalar.muli c0_i32_14 c512_i32_15
  let v27 : BitVec 32 := v26
  let v28 : Index := Scalar.indexCast v27
  let c0_16 : Index := 0#32
  ![v28.toNat, 0]
def k0_mult3 : BitVec 32 :=
  let c1_i32 : BitVec 32 := 1#32
  let c512_i32_36 : BitVec 32 := 512#32
  let v63 : BitVec 32 := Scalar.muli c1_i32 c512_i32_36
  v63
def k0_mult4 : BitVec 32 :=
  let c2_i32 : BitVec 32 := 2#32
  let c512_i32_57 : BitVec 32 := 512#32
  let v100 : BitVec 32 := Scalar.muli c2_i32 c512_i32_57
  v100
def k0_mult5 : BitVec 32 :=
  let c3_i32 : BitVec 32 := 3#32
  let c512_i32_78 : BitVec 32 := 512#32
  let v137 : BitVec 32 := Scalar.muli c3_i32 c512_i32_78
  v137
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  h_S1x512x1024 : 0 < S1x512x1024.numel
  shapeCasts_S1x512x1024_S512x1024 : S1x512x1024.ShapeCasts S512x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x512_S512 : S512x512.Reduces [1] S512
  shapeCasts_S512_S512x1 : S512.ShapeCasts S512x1
  broadcasts_S512x1_S512x512 : S512x1.Broadcasts S512x512
  broadcasts_S512x1_S512x1024 : S512x1.Broadcasts S512x1024
  inb_S1x512x1024_S1x512x1024_0_0_0 : ∀ a, (![0, 0, 0] : Fin 3 → Nat) a + S1x512x1024.size a ≤ S1x512x1024.size a
  shapeCasts_S512x1024_S1x512x1024 : S512x1024.ShapeCasts S1x512x1024
  dot_S2048x1024_S1024x1024_S2048x1024_1_0_0_1_n_n_wf : DotDims.WF S2048x1024 S1024x1024 S2048x1024 [1] [0] [0] [1] [] []
  dot_S512x1024_S1024x1024_S512x1024_1_0_0_1_n_n_wf : DotDims.WF S512x1024 S1024x1024 S512x1024 [1] [0] [0] [1] [] []
  dot_S512x1024_S512x1024_S512x512_1_1_0_0_n_n_wf : DotDims.WF S512x1024 S512x1024 S512x512 [1] [1] [0] [0] [] []
  dot_S512x512_S512x1024_S512x1024_1_0_0_1_n_n_wf : DotDims.WF S512x512 S512x1024 S512x1024 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512x1024.size a ≤ S1x2048x1024.size a
  k0_mult2_dvd : 512 ∣ k0_mult2.toNat
  k0_off2_inb : ∀ (r : Fin 4), ∀ a, (k0_off2 (BitVec.ofNat 32 r.val)) a + S512x1024.size a ≤ S2048x1024.size a
  k0_mult3_dvd : 512 ∣ k0_mult3.toNat
  k0_mult4_dvd : 512 ∣ k0_mult4.toNat
  k0_mult5_dvd : 512 ∣ k0_mult5.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x2048x1024.size a
  hwx0_0 : ∀ i : grid0.Coords, EltTy.bits .bf16 = 32 ∨ (Rect.block (s := S4x2048x1024) S1x2048x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S4x2048x1024.size a
  hwx0_4 : ∀ i : grid0.Coords, EltTy.bits .f32 = 32 ∨ (Rect.block (s := S4x2048x1024) S1x512x1024.size (cc0_transform_4 i) (hinb0_4 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S_ : Shape := ⟨0, ![]⟩
abbrev S4x2048x2048 : Shape := ⟨3, ![4, 2048, 2048]⟩
abbrev S4x2048 : Shape := ⟨2, ![4, 2048]⟩
abbrev S4x2048x1 : Shape := ⟨3, ![4, 2048, 1]⟩

abbrev nBuf : Space → Nat
  | .hbm => 29
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4x2048x2048, .f32⟩
  | .hbm, ⟨12, _⟩ => ⟨S4x2048x2048, .f32⟩
  | .hbm, ⟨13, _⟩ => ⟨S4x2048x2048, .f32⟩
  | .hbm, ⟨14, _⟩ => ⟨S_, .f32⟩
  | .hbm, ⟨15, _⟩ => ⟨S4x2048, .f32⟩
  | .hbm, ⟨16, _⟩ => ⟨S_, .f32⟩
  | .hbm, ⟨17, _⟩ => ⟨S4x2048, .f32⟩
  | .hbm, ⟨18, _⟩ => ⟨S4x2048, .f32⟩
  | .hbm, ⟨19, _⟩ => ⟨S4x2048x1, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S_, .f32⟩
  | .hbm, ⟨24, _⟩ => ⟨S4x2048, .f32⟩
  | .hbm, ⟨25, _⟩ => ⟨S4x2048x1, .f32⟩
  | .hbm, ⟨26, _⟩ => ⟨S4x2048x2048, .f32⟩
  | .hbm, ⟨27, _⟩ => ⟨S4x2048x2048, .f32⟩
  | .hbm, ⟨28, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.LibReadBack.lean ====
/-
  Reading a buffer back after stores.

  A kernel body that keeps a running value in a scratch buffer stores it whole and loads it whole, several times in a
  row. The symbolic run records such a load as a read over the LIST of stores made so far, latest first. When the
  latest store overwrote the whole buffer, the load returns that store's payload and the earlier stores do not matter.
  The library has this for a list of ONE store; here it is for any list.
-/
import Idealize.ShloMosaic.Lib.Pipeline.Value

noncomputable section

open Idealize.ShloMosaic

namespace Cert.Lib

/-- Reading a whole buffer back (a load through the whole-shape rectangle at zero offsets, however the zeros are spelt)
    after a list of stores, latest first, whose LATEST one went through that same rectangle returns that store's
    payload `w`, whatever the earlier stores `L` were. -/
theorem readCov_last_whole {sig : RefSig} {κ : Kind} {sp : Space} {S : Shape} {e : EltTy} {Val : EltTy → Type}
    [∀ e, Nonempty (Val e)] (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩),
    View.canon_cons_unit_zero rfl, View.ld_unit_zero rfl]

end Cert.Lib

end
-- ==== Proof.KernelBody.lean ====
/-
  What one grid point of the fused attention kernel leaves in its output block, as ONE pure function of what the
  point reads.

  A point (sequence b, query tile qi) reads the sequence's 2048 rows x0, the three weight matrices, and the keys K
  and values V of the whole sequence (2048 rows each) from two buffers that persist from point to point: the first
  point of a sequence (qi = 0) fills them with x0 * W_K and x0 * W_V, the other three points of the sequence find them
  as the point before left them. The body then takes the 512 query rows of its tile, multiplies them by W_Q and by the
  constant 1/32, and runs over the keys in four tiles of 512 rows, keeping a running maximum m, a running denominator l
  and a running numerator acc in three more buffers, each stored whole and read back whole; the output block is
  acc * (1 / l) after the fourth tile.

  `bodyVal` is that computation over the payload functions of the body's stores; `out_first` and `out_later` say that
  it is what the two control cases of the body leave in the output block, and `keys_first` / `values_first` what the
  first point of a sequence leaves in the two persistent buffers.
-/
import proofs.«135320_j11003706212570_2_alg».proof.Proof.Gen.KernelIdeal.Frame
import Idealize.ShloMosaic.Lib.Pipeline.Value
import proofs.«135320_j11003706212570_2_alg».proof.Proof.LibReadBack

set_option maxRecDepth 16384

noncomputable section

namespace Cert.KernelIdeal.Body

open Cert.KernelIdeal Cert.KernelIdeal.Gen Idealize.ShloMosaic Idealize.ShloMosaic.TcCoe Idealize.ShloMosaic.Tactic

variable {F : FTy → Type} [FloatOps F]

theorem hz2 : (![0, 0] : Fin 2 → Nat) = fun _ => 0 := by funext a; fin_cases a <;> rfl
theorem hz3 : (![0, 0, 0] : Fin 3 → Nat) = fun _ => 0 := by funext a; fin_cases a <;> rfl

/-- A load through ANY rectangle of a buffer that one store filled whole reads that store's payload at the rectangle's
    indices. -/
theorem readCov_whole_ld {sig : RefSig} {κ : Kind} {sp : Space} {S : Shape} {e : EltTy} {Val : EltTy → Type}
    [∀ e, Nonempty (Val e)] (v : View sig κ sp S e) {off : Fin S.rank → Nat} (h : off = fun _ => 0)
    (inb : ∀ a, off a + S.size a ≤ S.size a) (w : S.Idx → Val e) (r : Rect S) :
    v.readCov [(⟨Rect.unit off S.size inb, w⟩ : View.Piece Val S e)] r.toLoadRect = View.ld w r := by
  rw [View.readCov_eq_canon_ld _ _ _ (fun y => ⟨_, List.mem_singleton_self _, View.mem_set_unit_zero h inb y⟩),
    View.canon_unit_zero h]

section ReadBack

variable {sig : RefSig} {κ : Kind} {sp : Space} {e : EltTy} {Val : EltTy → Type} [∀ e, Nonempty (Val e)]

/-- A 512-entry column read back whole after stores of which the latest was whole: that store's payload. -/
theorem back_col (v : View sig κ sp S512x1 e) (inb : ∀ a, (![0, 0] : Fin 2 → Nat) a + (![512, 1] : Fin 2 → Nat) a ≤ S512x1.size a)
    (w : S512x1.Idx → Val e) (L : List (View.Piece Val S512x1 e)) :
    v.readCov ((⟨Rect.unit (s := S512x1) ![0, 0] ![512, 1] inb, w⟩ : View.Piece Val S512x1 e) :: L)
      (Rect.unit (s := S512x1) ![0, 0] ![512, 1] inb).toLoadRect = w :=
  Cert.Lib.readCov_last_whole (S := S512x1) v hz2 inb w L

/-- The same for a 512-by-1024 block. -/
theorem back_blk (v : View sig κ sp S512x1024 e) (inb : ∀ a, (![0, 0] : Fin 2 → Nat) a + (![512, 1024] : Fin 2 → Nat) a ≤ S512x1024.size a)
    (w : S512x1024.Idx → Val e) (L : List (View.Piece Val S512x1024 e)) :
    v.readCov ((⟨Rect.unit (s := S512x1024) ![0, 0] ![512, 1024] inb, w⟩ : View.Piece Val S512x1024 e) :: L)
      (Rect.unit (s := S512x1024) ![0, 0] ![512, 1024] inb).toLoadRect = w :=
  Cert.Lib.readCov_last_whole (S := S512x1024) v hz2 inb w L

/-- A tile of rows read out of a 2048-row buffer that one store filled whole. -/
theorem tile_ld (v : View sig κ sp S2048x1024 e) (inb : ∀ a, (![0, 0] : Fin 2 → Nat) a + (![2048, 1024] : Fin 2 → Nat) a ≤ S2048x1024.size a)
    (w : S2048x1024.Idx → Val e) (r : Rect S2048x1024) :
    v.readCov [(⟨Rect.unit (s := S2048x1024) ![0, 0] ![2048, 1024] inb, w⟩ : View.Piece Val S2048x1024 e)] r.toLoadRect = View.ld w r :=
  readCov_whole_ld (S := S2048x1024) v hz2 inb w r

/-- A whole load of the sequence's rows reads them. -/
theorem ld_rows (X : S1x2048x1024.Idx → Val e) (inb : ∀ a, (![0, 0, 0] : Fin 3 → Nat) a + (![1, 2048, 1024] : Fin 3 → Nat) a ≤ S1x2048x1024.size a) :
    View.ld X (Rect.unit (s := S1x2048x1024) ![0, 0, 0] ![1, 2048, 1024] inb) = X := View.ld_unit_zero (S := S1x2048x1024) hz3 inb X

/-- A whole load of a weight matrix reads it. -/
theorem ld_weights (X : S1024x1024.Idx → Val e) (inb : ∀ a, (![0, 0] : Fin 2 → Nat) a + (![1024, 1024] : Fin 2 → Nat) a ≤ S1024x1024.size a) :
    View.ld X (Rect.unit (s := S1024x1024) ![0, 0] ![1024, 1024] inb) = X := View.ld_unit_zero (S := S1024x1024) hz2 inb X

end ReadBack

/-- The 512 query rows of tile `i 1` of the sequence's rows. -/
def queryRect (i : grid0.Coords) : Rect S1x2048x1024 := Rect.unit (k0_off1 i) S1x512x1024.size (k0_off1_inb i)

/-- Rows `o` to `o + 512` of a 2048-row buffer: one tile of keys, or of values. -/
def tileRect (o : Nat) (h : o + 512 ≤ 2048) : Rect S2048x1024 :=
  Rect.unit ![o, 0] S512x1024.size (fun a => by
    match a with
    | ⟨0, _⟩ => exact h
    | ⟨1, _⟩ => exact Nat.le_refl _)

/-- The body's arithmetic over the scaled query tile `q`, four tiles of keys and four tiles of values: the running
    maximum, denominator and numerator after each tile, and numerator times one over denominator at the end. -/
def core (q : FVec F S512x1024 .bf16) (k0 k1 k2 k3 v0 v1 v2 v3 : Vec F S512x1024 .bf16) : Vec F S1x512x1024 .f32 :=
  let m1 := k0_pay15 q k0 k0_pay6
  let l1 := k0_pay13 q k0 k0_pay6 k0_pay6 k0_pay7
  let a1 := k0_pay14 q k0 v0 k0_pay6 k0_pay6 k0_pay8
  let m2 := k0_pay22 q k1 m1
  let l2 := k0_pay20 q k1 m1 m1 l1
  let a2 := k0_pay21 q k1 v1 m1 m1 a1
  let m3 := k0_pay29 q k2 m2
  let l3 := k0_pay27 q k2 m2 m2 l2
  let a3 := k0_pay28 q k2 v2 m2 m2 a2
  let l4 := k0_pay34 q k3 m3 m3 l3
  let a4 := k0_pay35 q k3 v3 m3 m3 a3
  k0_pay1 a4 l4

/-- The output block of one point, from the sequence's rows `x0`, the query weights `x1`, and the keys `K` and values
    `V` of the whole sequence. -/
def bodyVal (i : grid0.Coords) (x0 : Vec F S1x2048x1024 .bf16) (x1 : Vec F S1024x1024 .bf16)
    (K V : Vec F S2048x1024 .bf16) : Vec F S1x512x1024 .f32 :=
  core (k0_pay5 (View.ld x0 (queryRect i)) x1)
    (View.ld K (tileRect 0 (by omega))) (View.ld K (tileRect 512 (by omega)))
    (View.ld K (tileRect 1024 (by omega))) (View.ld K (tileRect 1536 (by omega)))
    (View.ld V (tileRect 0 (by omega))) (View.ld V (tileRect 512 (by omega)))
    (View.ld V (tileRect 1024 (by omega))) (View.ld V (tileRect 1536 (by omega)))

/-- The first point of a sequence leaves the keys `x0 * W_K` in the first persistent buffer. -/
theorem keys_first (c : Dev nD) (i : grid0.Coords) (arg2 : Memref sig .tc .vmem S1x2048x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S2048x1024 .bf16) (harg7 : arg7.IsWhole) (arg8 : Memref sig .tc .vmem S2048x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : cond0_0 i)
    (x0 : Vec F S1x2048x1024 .bf16) (x1 : Vec F S1024x1024 .bf16) (x2 : Vec F S1024x1024 .bf16) (x3 : Vec F S1024x1024 .bf16) :
    sout0_A_0 c i arg2 harg2 arg3 harg3 arg4 harg4 arg5 harg5 arg6 harg6 arg7 harg7 arg8 harg8 arg9 harg9 arg10 harg10 arg11 harg11 hc0 x0 x1 x2 x3 = k0_pay3 x0 x2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 x0 x1 x2 x3)]
  unfold kernelRun0_A
  dsimp only
  sl_unfold_words
  rw [View.canon_unit_zero hz2]
  simp only [View.readAt_eq_ld, harg2.read_unread, harg4.read_unread, ld_rows, ld_weights]

/-- … and the values `x0 * W_V` in the second. -/
theorem values_first (c : Dev nD) (i : grid0.Coords) (arg2 : Memref sig .tc .vmem S1x2048x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S2048x1024 .bf16) (harg7 : arg7.IsWhole) (arg8 : Memref sig .tc .vmem S2048x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : cond0_0 i)
    (x0 : Vec F S1x2048x1024 .bf16) (x1 : Vec F S1024x1024 .bf16) (x2 : Vec F S1024x1024 .bf16) (x3 : Vec F S1024x1024 .bf16) :
    sout0_A_1 c i arg2 harg2 arg3 harg3 arg4 harg4 arg5 harg5 arg6 harg6 arg7 harg7 arg8 harg8 arg9 harg9 arg10 harg10 arg11 harg11 hc0 x0 x1 x2 x3 = k0_pay4 x0 x3 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 x0 x1 x2 x3)]
  unfold kernelRun0_A
  dsimp only
  sl_unfold_words
  rw [View.canon_unit_zero hz2]
  simp only [View.readAt_eq_ld, harg2.read_unread, harg5.read_unread, ld_rows, ld_weights]

/-- The output block of the first point of a sequence: the body's function of the rows, the query weights and the keys
    and values it has just stored. -/
theorem out_first (c : Dev nD) (i : grid0.Coords) (arg2 : Memref sig .tc .vmem S1x2048x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S2048x1024 .bf16) (harg7 : arg7.IsWhole) (arg8 : Memref sig .tc .vmem S2048x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : cond0_0 i)
    (x0 : Vec F S1x2048x1024 .bf16) (x1 : Vec F S1024x1024 .bf16) (x2 : Vec F S1024x1024 .bf16) (x3 : Vec F S1024x1024 .bf16) :
    out0_A_4 c i arg2 harg2 arg3 harg3 arg4 harg4 arg5 harg5 arg6 harg6 arg7 harg7 arg8 harg8 arg9 harg9 arg10 harg10 arg11 harg11 hc0 x0 x1 x2 x3 = bodyVal i x0 x1 (k0_pay3 x0 x2) (k0_pay4 x0 x3) := by
  unfold out0_A_4
  rw [View.read_writes_eq_canon _ _ _ (cover0_A_4 c i arg2 harg2 arg3 harg3 arg4 harg4 arg5 harg5 arg6 harg6 arg7 harg7 arg8 harg8 arg9 harg9 arg10 harg10 arg11 harg11 hc0 x0 x1 x2 x3)]
  unfold kernelRun0_A
  dsimp only
  sl_unfold_words
  rw [View.canon_unit_zero hz3]
  simp only [back_col, back_blk, tile_ld, View.readAt_eq_ld, harg2.read_unread,
    harg3.read_unread, harg4.read_unread, harg5.read_unread, ld_rows, ld_weights]
  rfl

/-- The output block of a later point of a sequence: the same function, of the keys and values the point before left. -/
theorem out_later (c : Dev nD) (i : grid0.Coords) (arg2 : Memref sig .tc .vmem S1x2048x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S2048x1024 .bf16) (harg7 : arg7.IsWhole) (arg8 : Memref sig .tc .vmem S2048x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : ¬cond0_0 i)
    (x0 : Vec F S1x2048x1024 .bf16) (x1 : Vec F S1024x1024 .bf16) (x2 : Vec F S1024x1024 .bf16) (x3 : Vec F S1024x1024 .bf16)
    (xs0 xs1 : Vec F S2048x1024 .bf16) :
    out0_B_4 c i arg2 harg2 arg3 harg3 arg4 harg4 arg5 harg5 arg6 harg6 arg7 harg7 arg8 harg8 arg9 harg9 arg10 harg10 arg11 harg11 hc0 x0 x1 x2 x3 xs0 xs1 = bodyVal i x0 x1 xs0 xs1 := by
  unfold out0_B_4
  rw [View.read_writes_eq_canon _ _ _ (cover0_B_4 c i arg2 harg2 arg3 harg3 arg4 harg4 arg5 harg5 arg6 harg6 arg7 harg7 arg8 harg8 arg9 harg9 arg10 harg10 arg11 harg11 hc0 x0 x1 x2 x3 xs0 xs1)]
  unfold kernelRun0_B
  dsimp only
  sl_unfold_words
  rw [View.canon_unit_zero hz3]
  simp only [back_col, back_blk, View.readAt_eq_ld, harg2.read_unread,
    harg3.read_unread, harg7.read_unread, harg8.read_unread, ld_rows, ld_weights]
  rfl

end Cert.KernelIdeal.Body

end
-- ==== Proof.LibKeepdims3.lean ====
/-
  Keep-dimensions layout operations on the LAST axis of a rank-3 array, read at an index, and the normalisation of each
  row (last axis) to unit Euclidean length — at the ideal values.

  * an array [a, b] cast to [a, b, 1] reads, at (i, j, ·), the array at (i, j);
  * an array [a, b, 1] broadcast to [a, b, c] reads, at (i, j, k), the array at (i, j, 0);
  * a sum along the last axis of [a, b, c], at (i, j), is the sum over k of the entry (i, j, k);
  * dividing every entry by the larger of its row's Euclidean norm and a constant ε — as a kernel spells it: square,
    sum, recast, square root, maximum with the constant column, broadcast, divide — reads at (i, j, k) as
    x / max(√(Σ_q x_q²), ε) of the row x = (entry (i, j, q))_q alone.
  With rows indexed (head, position) this is the per-head normalisation of queries and keys in head-major layout.
  Any sizes; nothing is asked of the entries or of ε.
-/
import Idealize.ShloMosaic.PureOps.Ideal.Laws
import Idealize.ShloMosaic.Lib.ValueIdx
import Idealize.ShloMosaic.Lib.ValueLayout
import Idealize.ShloMosaic.Lib.Pipeline.Value

noncomputable section

namespace Cert.Lib.Keepdims3

open Idealize.ShloMosaic Idealize.ShloMosaic.ValueIdx

variable {α : Type} {a b c : ℕ}

/-- An array [a, b] cast to [a, b, 1] reads, at (i, j, u), the array at (i, j). -/
theorem shapeCast_ab_ab1_apply (x : (⟨2, ![a, b]⟩ : Shape).Idx → α) (h : (⟨2, ![a, b]⟩ : Shape).ShapeCasts ⟨3, ![a, b, 1]⟩)
    (i : Fin a) (j : Fin b) (u : Fin 1) : shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An array [a, b, 1] broadcast to [a, b, c] reads, at (i, j, k), the array at (i, j, 0). -/
theorem broadcastTo_ab1_abc_apply (v : (⟨3, ![a, b, 1]⟩ : Shape).Idx → α) (h : (⟨3, ![a, b, 1]⟩ : Shape).Broadcasts ⟨3, ![a, b, c]⟩)
    (i : Fin a) (j : Fin b) (k : Fin c) : broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The sum along the last axis: at (i, j), the sum over k of the entry (i, j, k). -/
theorem add_axis2_apply {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) := by
  refine (Ideal.multiReduction_add_single src acc h hφ hacc (ix2 i j)).trans ?_
  refine Finset.sum_congr rfl fun k _ => ?_
  exact congrArg src (funext fun d => Fin.ext (by match d with | ⟨0, _⟩ => rfl | ⟨1, _⟩ => rfl | ⟨2, _⟩ => rfl))

/-- A row divided by the larger of its Euclidean norm and ε. -/
def unitRow (x : Fin c → EReal) (eps : EReal) (k : Fin c) : EReal :=
  Ideal.div (x k) (max (Ideal.sqrt (∑ q, x q * x q)) eps)

/-- THE NORMALISED ARRAY read at (i, j, k): the row's entry over the larger of the row's norm and ε. -/
theorem unitRows_apply (x : FVec Ideal ⟨3, ![a, b, c]⟩ .f32)
    (hred : (⟨3, ![a, b, c]⟩ : Shape).Reduces [2] ⟨2, ![a, b]⟩) (hφ : FKind.Formats FTy.f32)
    (hacc : (0x00000000#32 : BitVec FTy.f32.bits) = FKind.add.neutral .f32 hφ)
    (hcast : (⟨2, ![a, b]⟩ : Shape).ShapeCasts ⟨3, ![a, b, 1]⟩)
    (hb : (⟨3, ![a, b, 1]⟩ : Shape).Broadcasts ⟨3, ![a, b, c]⟩) (eps : EReal)
    (i : Fin a) (j : Fin b) (k : Fin c) :
    divf x (broadcastTo ⟨3, ![a, b, c]⟩
        (maximumf (sqrt (shapeCast ⟨3, ![a, b, 1]⟩ (multiReduction .add [2] ⟨2, ![a, b]⟩ (mulf x x) 0x00000000#32 hred hφ hacc) hcast))
          (broadcast ⟨3, ![a, b, 1]⟩ eps)) hb) (ix3 i j k)
      = unitRow (fun q => x (ix3 i j q)) eps k := by
  unfold unitRow
  rw [divf_apply, broadcastTo_ab1_abc_apply, maximumf_apply, broadcast_apply]
  show Ideal.div _ (max (FloatOps.sqrt (shapeCast ⟨3, ![a, b, 1]⟩ (multiReduction .add [2] ⟨2, ![a, b]⟩ (mulf x x) 0x00000000#32 hred hφ hacc) hcast (ix3 i j (0 : Fin 1)))) eps) = _
  rw [shapeCast_ab_ab1_apply, add_axis2_apply]
  simp only [mulf_apply]
  rfl

end Cert.Lib.Keepdims3

end
-- ==== Proof.LibHostSoftmax.lean ====
/-
  jnp's softmax over the last axis of a rank-3 array, as it is spelt on the host, read at an entry — at the ideal values.

  The host computes, for an array x of shape [A, B, C]: the maximum of each row (a reduce-max over the last axis from −∞,
  then a maximum with a broadcast −∞), broadcast back and subtracted; the exponential; the sum of each row (a reduce-add from
  a zero scalar), broadcast back; the quotient. Read at (a, b, c) this is

      e^(x_c − M) / Σ_j e^(x_j − M),      M = max(−∞, max-fold from −∞ of the row),

  of the row x = (entry (a, b, j))_j alone. Nothing is asked of the entries. (That the result does not depend on which
  finite number is subtracted is LibSoftmaxShift's law; here only the reading.) Any sizes.

  Last, with the same layout operations: the host's normalisation of each row to unit Euclidean length — square, reduce-add,
  broadcast, square root, maximum with a broadcast ε, broadcast, divide — read at (a, b, c) as x_c / max(√(Σ_q x_q²), ε):
  the SAME `unitRow` a kernel's spelling reads as (LibKeepdims3).
-/
import Idealize.ShloMosaic.PureOps.Ideal.Laws
import Idealize.ShloMosaic.PureOps.Contract
import Idealize.ShloMosaic.PureOps.Reduce
import Idealize.ShloMosaic.Lib.ValueIdx
import Idealize.ShloMosaic.Lib.Pipeline.Value
import proofs.«135320_j11003706212570_2_alg».proof.Proof.LibKeepdims3

noncomputable section

namespace Cert.Lib.HostSoftmax

open Idealize.ShloMosaic Idealize.ShloMosaic.ValueIdx

variable {A B C : ℕ}

/-- The rank-0 shape of a host scalar. -/
abbrev S0 : Shape := ⟨0, ![]⟩

/-- A host scalar broadcast to [A, B] reads the scalar everywhere. -/
theorem scalarMat_apply (hb0 : (S0).BroadcastsInDim ⟨2, ![A, B]⟩ ![]) (bits : BitVec 32) (a : Fin A) (b : Fin B) :
    broadcastInDim ⟨2, ![A, B]⟩ ![] hb0 (constant (F := Ideal) S0 .f32 bits) (ix2 a b) = Ideal.ofBits .f32 bits :=
  (broadcastInDim_apply ![] hb0 (constant (F := Ideal) S0 .f32 bits) (ix2 a b) (fun d => d.elim0) (fun d => d.elim0)).trans rfl

/-- [A, B] broadcast to [A, B, 1] reads, at (a, b, ·), the entry (a, b). -/
theorem keep_apply (hb1 : (⟨2, ![A, B]⟩ : Shape).BroadcastsInDim ⟨3, ![A, B, 1]⟩ ![0, 1]) (x : (⟨2, ![A, B]⟩ : Shape).Idx → EReal)
    (a : Fin A) (b : Fin B) (u : Fin 1) : broadcastInDim ⟨3, ![A, B, 1]⟩ ![0, 1] hb1 x (ix3 a b u) = x (ix2 a b) := by
  refine broadcastInDim_apply ![0, 1] hb1 x (ix3 a b u) (ix2 a b) fun d => ?_
  match d with
  | ⟨0, _⟩ =>
    show a.val = if A = 1 then 0 else a.val
    split
    · have := a.isLt; omega
    · rfl
  | ⟨1, _⟩ =>
    show b.val = if B = 1 then 0 else b.val
    split
    · have := b.isLt; omega
    · rfl

/-- [A, B, 1] broadcast to [A, B, C] reads, at (a, b, c), the entry (a, b, 0). -/
theorem spread_apply (hb2 : (⟨3, ![A, B, 1]⟩ : Shape).BroadcastsInDim ⟨3, ![A, B, C]⟩ ![0, 1, 2]) (v : (⟨3, ![A, B, 1]⟩ : Shape).Idx → EReal)
    (a : Fin A) (b : Fin B) (c : Fin C) : broadcastInDim ⟨3, ![A, B, C]⟩ ![0, 1, 2] hb2 v (ix3 a b c) = v (ix3 a b (0 : Fin 1)) := by
  refine broadcastInDim_apply ![0, 1, 2] hb2 v (ix3 a b c) (ix3 a b (0 : Fin 1)) fun d => ?_
  match d with
  | ⟨0, _⟩ =>
    show a.val = if A = 1 then 0 else a.val
    split
    · have := a.isLt; omega
    · rfl
  | ⟨1, _⟩ =>
    show b.val = if B = 1 then 0 else b.val
    split
    · have := b.isLt; omega
    · rfl
  | ⟨2, _⟩ => rfl

/-- The host's sum along the last axis from a zero scalar: at (a, b), the sum over c. -/
theorem rowSum_apply (src : FVec Ideal ⟨3, ![A, B, C]⟩ .f32) (h' : (⟨3, ![A, B, C]⟩ : Shape).ReducesTo [2] ⟨2, ![A, B]⟩)
    (hred : (⟨3, ![A, B, C]⟩ : Shape).Reduces [2] ⟨2, ![A, B]⟩) (hu : 0 < (S0).numel) (a : Fin A) (b : Fin B) :
    Host.reduceAdd src (constant (F := Ideal) S0 .f32 0x00000000#32) h' hu (ix2 a b) = ∑ c : Fin C, src (ix3 a b c) := by
  show Ideal.hostReduceAdd _ _ _ (ix2 a b) = _
  rw [Ideal.hostReduceAdd_single h' hred]
  show Ideal.ofBits .f32 0x00000000#32 + _ = _
  rw [Ideal.ofBits_zero_f32, zero_add]
  refine Finset.sum_congr rfl fun c _ => ?_
  exact congrArg src (funext fun d => Fin.ext (by match d with | ⟨0, _⟩ => rfl | ⟨1, _⟩ => rfl | ⟨2, _⟩ => rfl))

/-- The host's maximum along the last axis from an initial scalar: at (a, b), the fold of `max` over c. -/
theorem rowMax_apply (src : FVec Ideal ⟨3, ![A, B, C]⟩ .f32) (h' : (⟨3, ![A, B, C]⟩ : Shape).ReducesTo [2] ⟨2, ![A, B]⟩)
    (hred : (⟨3, ![A, B, C]⟩ : Shape).Reduces [2] ⟨2, ![A, B]⟩) (hu : 0 < (S0).numel) (bits : BitVec 32) (a : Fin A) (b : Fin B) :
    Host.reduce (FloatOps.maximumf (F := Ideal) (φ := .f32)) src (constant (F := Ideal) S0 .f32 bits) h' hu (ix2 a b)
      = (Finset.univ : Finset (Fin C)).fold max (Ideal.ofBits .f32 bits) (fun c => src (ix3 a b c)) := by
  refine (Host.reduce_eq_fold_single (FloatOps.maximumf (F := Ideal) (φ := .f32)) src _ h' hred hu (ix2 a b)).trans ?_
  refine Finset.fold_congr fun c _ => ?_
  exact congrArg src (funext fun d => Fin.ext (by match d with | ⟨0, _⟩ => rfl | ⟨1, _⟩ => rfl | ⟨2, _⟩ => rfl))

/-- The number the host subtracts from a row: the larger of the initial value and the row's max-fold from it. -/
def rowShift (x : Fin C → EReal) (ninf : EReal) : EReal := max ninf ((Finset.univ : Finset (Fin C)).fold max ninf x)

/-- The softmax weight of position c in a row, with shift M. -/
def softWeight (x : Fin C → EReal) (M : EReal) (c : Fin C) : EReal := Ideal.div (Ideal.exp (x c - M)) (∑ j, Ideal.exp (x j - M))

/-- The fold of `max` from −∞ over a nonempty finite set of reals is a real. -/
theorem fold_max_real (r : Fin C → ℝ) : ∀ s : Finset (Fin C), s.Nonempty →
    ∃ M : ℝ, s.fold max (⊥ : EReal) (fun j => ((r j : ℝ) : EReal)) = (M : EReal) := by
  intro s
  refine Finset.induction_on s (fun h => absurd h Finset.not_nonempty_empty) ?_
  intro a s ha ih _
  rw [Finset.fold_insert ha]
  by_cases hs' : s.Nonempty
  · obtain ⟨M, hM⟩ := ih hs'
    exact ⟨max (r a) M, by rw [hM]; exact (EReal.coe_strictMono.monotone.map_max).symm⟩
  · rw [Finset.not_nonempty_iff_eq_empty.mp hs', Finset.fold_empty]
    exact ⟨r a, max_eq_left bot_le⟩

/-- For a nonempty row of REAL entries, the host's shift from −∞ is a real: the row's largest entry. So it is one of the
    finite shifts the shift-invariance law allows. -/
theorem rowShift_real [NeZero C] (r : Fin C → ℝ) : ∃ M : ℝ, rowShift (fun j => ((r j : ℝ) : EReal)) ⊥ = (M : EReal) := by
  obtain ⟨M, hM⟩ := fold_max_real r Finset.univ (Finset.univ_nonempty_iff.mpr ⟨⟨0, Nat.pos_of_ne_zero (NeZero.ne C)⟩⟩)
  exact ⟨M, by unfold rowShift; rw [hM]; exact max_eq_right bot_le⟩

section Stages

variable (src : FVec Ideal ⟨3, ![A, B, C]⟩ .f32)
  (h' : (⟨3, ![A, B, C]⟩ : Shape).ReducesTo [2] ⟨2, ![A, B]⟩) (hred : (⟨3, ![A, B, C]⟩ : Shape).Reduces [2] ⟨2, ![A, B]⟩) (hu : 0 < (S0).numel)
  (hb0 : (S0).BroadcastsInDim ⟨2, ![A, B]⟩ ![]) (hb1 : (⟨2, ![A, B]⟩ : Shape).BroadcastsInDim ⟨3, ![A, B, 1]⟩ ![0, 1])
  (hb2 : (⟨3, ![A, B, 1]⟩ : Shape).BroadcastsInDim ⟨3, ![A, B, C]⟩ ![0, 1, 2]) (ninfBits : BitVec 32)

/-- The host's matrix of row maxima. -/
def hostMax : FVec Ideal ⟨2, ![A, B]⟩ .f32 :=
  maximumf (broadcastInDim ⟨2, ![A, B]⟩ ![] hb0 (constant (F := Ideal) S0 .f32 ninfBits))
    (Host.reduce (FloatOps.maximumf (F := Ideal) (φ := .f32)) src (constant (F := Ideal) S0 .f32 ninfBits) h' hu)

include hred in
theorem hostMax_apply (a : Fin A) (b : Fin B) :
    hostMax src h' hu hb0 ninfBits (ix2 a b) = rowShift (fun c => src (ix3 a b c)) (Ideal.ofBits .f32 ninfBits) := by
  unfold hostMax rowShift
  rw [maximumf_apply, scalarMat_apply, rowMax_apply src h' hred hu]

/-- The host's array of shifted exponentials. -/
def hostExp : FVec Ideal ⟨3, ![A, B, C]⟩ .f32 :=
  Host.exp (subf src (broadcastInDim ⟨3, ![A, B, C]⟩ ![0, 1, 2] hb2 (broadcastInDim ⟨3, ![A, B, 1]⟩ ![0, 1] hb1 (hostMax src h' hu hb0 ninfBits))))

include hred in
theorem hostExp_apply (a : Fin A) (b : Fin B) (c : Fin C) :
    hostExp src h' hu hb0 hb1 hb2 ninfBits (ix3 a b c)
      = Ideal.exp (src (ix3 a b c) - rowShift (fun j => src (ix3 a b j)) (Ideal.ofBits .f32 ninfBits)) := by
  unfold hostExp
  show Ideal.exp (subf src _ (ix3 a b c)) = _
  rw [subf_apply, spread_apply, keep_apply, hostMax_apply src h' hred]

include hred in
/-- THE HOST'S SOFTMAX read at (a, b, c): the softmax weight of position c in its row, shifted by the row's maximum. -/
theorem hostSoftmax_apply (a : Fin A) (b : Fin B) (c : Fin C) :
    Host.divf (hostExp src h' hu hb0 hb1 hb2 ninfBits)
        (broadcastInDim ⟨3, ![A, B, C]⟩ ![0, 1, 2] hb2 (broadcastInDim ⟨3, ![A, B, 1]⟩ ![0, 1] hb1
          (Host.reduceAdd (hostExp src h' hu hb0 hb1 hb2 ninfBits) (constant (F := Ideal) S0 .f32 0x00000000#32) h' hu))) (ix3 a b c)
      = softWeight (fun j => src (ix3 a b j)) (rowShift (fun j => src (ix3 a b j)) (Ideal.ofBits .f32 ninfBits)) c := by
  unfold softWeight
  show Ideal.div _ _ = _
  rw [hostExp_apply src h' hred, spread_apply, keep_apply, rowSum_apply _ h' hred hu]
  simp only [hostExp_apply src h' hred]

end Stages

section UnitRows

open Cert.Lib.Keepdims3 (unitRow)

/-- A host scalar broadcast to [A, B, 1] reads the scalar everywhere. -/
theorem scalarKeep_apply (hbs : (S0).BroadcastsInDim ⟨3, ![A, B, 1]⟩ ![]) (bits : BitVec 32) (a : Fin A) (b : Fin B) (u : Fin 1) :
    broadcastInDim ⟨3, ![A, B, 1]⟩ ![] hbs (constant (F := Ideal) S0 .f32 bits) (ix3 a b u) = Ideal.ofBits .f32 bits :=
  (broadcastInDim_apply ![] hbs (constant (F := Ideal) S0 .f32 bits) (ix3 a b u) (fun d => d.elim0) (fun d => d.elim0)).trans rfl

/-- THE HOST'S UNIT ROWS read at (a, b, c). -/
theorem hostUnitRows_apply (x : FVec Ideal ⟨3, ![A, B, C]⟩ .f32)
    (h' : (⟨3, ![A, B, C]⟩ : Shape).ReducesTo [2] ⟨2, ![A, B]⟩) (hred : (⟨3, ![A, B, C]⟩ : Shape).Reduces [2] ⟨2, ![A, B]⟩) (hu : 0 < (S0).numel)
    (hb1 : (⟨2, ![A, B]⟩ : Shape).BroadcastsInDim ⟨3, ![A, B, 1]⟩ ![0, 1]) (hbs : (S0).BroadcastsInDim ⟨3, ![A, B, 1]⟩ ![])
    (hb2 : (⟨3, ![A, B, 1]⟩ : Shape).BroadcastsInDim ⟨3, ![A, B, C]⟩ ![0, 1, 2]) (epsBits : BitVec 32)
    (a : Fin A) (b : Fin B) (c : Fin C) :
    Host.divf x (broadcastInDim ⟨3, ![A, B, C]⟩ ![0, 1, 2] hb2
        (maximumf (Host.sqrt (broadcastInDim ⟨3, ![A, B, 1]⟩ ![0, 1] hb1
            (Host.reduceAdd (mulf x x) (constant (F := Ideal) S0 .f32 0x00000000#32) h' hu)))
          (broadcastInDim ⟨3, ![A, B, 1]⟩ ![] hbs (constant (F := Ideal) S0 .f32 epsBits)))) (ix3 a b c)
      = unitRow (fun q => x (ix3 a b q)) (Ideal.ofBits .f32 epsBits) c := by
  unfold unitRow
  show Ideal.div _ _ = _
  rw [spread_apply, maximumf_apply, scalarKeep_apply]
  show Ideal.div _ (max (Ideal.sqrt (broadcastInDim ⟨3, ![A, B, 1]⟩ ![0, 1] hb1
    (Host.reduceAdd (mulf x x) (constant (F := Ideal) S0 .f32 0x00000000#32) h' hu) (ix3 a b (0 : Fin 1)))) _) = _
  rw [keep_apply, rowSum_apply _ h' hred hu]
  simp only [mulf_apply]

end UnitRows

end Cert.Lib.HostSoftmax

end
-- ==== Proof.AttnSpec.lean ====
/-
  Self-attention, index by index, on the extended reals.

  For an array X of four sequences of 2048 rows of 1024 features and three 1024-by-1024 weight matrices:
  a row's query, key and value are its products with the three matrices (`proj`); the score of query row n
  against key row m of the same sequence is their inner product times 1/32 (1024 features, and 32 * 32 = 1024);
  each query row's scores are turned into softmax weights, shifted by the row's largest score; and the result
  row is the weighted sum of the value rows.

  Also here: the running form in which the same weighted sum is accumulated over the keys a tile at a time.
  A state is a running maximum m, a running denominator l and a running numerator a. A tile with scores s and
  values v moves the maximum to M = max m (max s), rescales what was accumulated by e^(m - M), and adds the
  tile's own e^(s i - M) and e^(s i - M) * v i. The result is a * (1 / l) after the last tile.
-/
import Idealize.ShloMosaic.PureOps.Ideal
import Idealize.ShloMosaic.Lib.ValueIdx
import proofs.«135320_j11003706212570_2_alg».proof.Proof.LibHostSoftmax

noncomputable section

namespace Cert.Attn

open Idealize.ShloMosaic Idealize.ShloMosaic.ValueIdx
open Cert.Lib.HostSoftmax (softWeight rowShift)

/-- Four sequences of 2048 rows of 1024 features. -/
abbrev SX : Shape := ⟨3, ![4, 2048, 1024]⟩
/-- A 1024-by-1024 weight matrix. -/
abbrev SW : Shape := ⟨2, ![1024, 1024]⟩

/-- Row n of sequence b times the weight matrix, at output feature e. -/
def proj (X : SX.Idx → EReal) (W : SW.Idx → EReal) (b : Fin 4) (n : Fin 2048) (e : Fin 1024) : EReal :=
  ∑ d : Fin 1024, X (ix3 b n d) * W (ix2 d e)

/-- One over the square root of the number of features: 1/32. -/
def scale : EReal := ((1 / 32 : ℝ) : EReal)

/-- The score of query row n against key row m of sequence b. -/
def score (X : SX.Idx → EReal) (Wq Wk : SW.Idx → EReal) (b : Fin 4) (n m : Fin 2048) : EReal :=
  (∑ e : Fin 1024, proj X Wq b n e * proj X Wk b m e) * scale

/-- Attention: the softmax-weighted sum of the value rows. -/
def attn (X : SX.Idx → EReal) (Wq Wk Wv : SW.Idx → EReal) (b : Fin 4) (n : Fin 2048) (e : Fin 1024) : EReal :=
  ∑ m : Fin 2048, softWeight (fun j => score X Wq Wk b n j) (rowShift (fun j => score X Wq Wk b n j) ⊥) m
    * proj X Wv b m e

/-- The whole result array. -/
def G (X : SX.Idx → EReal) (Wq Wk Wv : SW.Idx → EReal) : SX.Idx → EReal :=
  fun i => attn X Wq Wk Wv (i 0) (i 1) (i 2)

/-! ## The running form over tiles of keys -/

section Online

variable {B : ℕ}

/-- The largest score of a tile, from −∞. -/
def tileMax (s : Fin B → EReal) : EReal := (Finset.univ : Finset (Fin B)).fold max ⊥ s

/-- The running maximum after a tile. -/
def nextMax (m : EReal) (s : Fin B → EReal) : EReal := max m (tileMax s)

/-- The running denominator after a tile. -/
def nextDen (m l : EReal) (s : Fin B → EReal) : EReal :=
  Ideal.exp (m - nextMax m s) * l + ∑ i, Ideal.exp (s i - nextMax m s)

/-- The running numerator after a tile. -/
def nextNum (m a : EReal) (s v : Fin B → EReal) : EReal :=
  Ideal.exp (m - nextMax m s) * a + ∑ i, Ideal.exp (s i - nextMax m s) * v i

/-- One tile: the state (maximum, denominator, numerator) after it. -/
def tileStep (st : EReal × EReal × EReal) (s v : Fin B → EReal) : EReal × EReal × EReal :=
  (nextMax st.1 s, nextDen st.1 st.2.1 s, nextNum st.1 st.2.2 s v)

/-- Four tiles from the empty state (−∞, 0, 0), then numerator times one over denominator. -/
def online4 (S V : Fin 4 → Fin B → EReal) : EReal :=
  (tileStep (tileStep (tileStep (tileStep (⊥, 0, 0) (S 0) (V 0)) (S 1) (V 1)) (S 2) (V 2)) (S 3) (V 3)).2.2
    * Ideal.div 1 (tileStep (tileStep (tileStep (tileStep (⊥, 0, 0) (S 0) (V 0)) (S 1) (V 1)) (S 2) (V 2)) (S 3) (V 3)).2.1

end Online

/-- Key row `t * 512 + i`: position i of tile t. -/
def key (t : Fin 4) (i : Fin 512) : Fin 2048 := ⟨t.val * 512 + i.val, by have := t.isLt; have := i.isLt; omega⟩

end Cert.Attn

end
-- ==== Proof.KernelPoints.lean ====
/-
  The grid of the fused attention kernel: 16 points, point t working on sequence t / 4 and query tile t % 4, in order.

  * The two buffers that persist from point to point hold, after ANY point, the keys and the values of the whole sequence
    the point belongs to, computed from the blocks the sequence's FIRST point read: the first point of a sequence stores
    them, the next three leave them untouched.
  * So every point's output block is ONE function (`bodyVal`) of the point's own blocks and of those keys and values,
    whichever of the two control cases the point runs.
  * Block t of the output array is rows 512 * (t % 4) .. + 512 of sequence t / 4; the 16 blocks are written back at their
    points and together cover the array. So if the blocks agree, entry by entry, with one array-sized function, the array
    ends holding that function.
  * What the region finds in the staged arrays is the argument arrays themselves (the host only changes their float
    format, which is the identity on extended reals), so a block's entry is an entry of an argument.
-/
import proofs.«135320_j11003706212570_2_alg».proof.Proof.Gen.KernelIdeal.Value
import proofs.«135320_j11003706212570_2_alg».proof.Proof.KernelBody
import proofs.«135320_j11003706212570_2_alg».proof.Proof.AttnSpec
import Idealize.ShloMosaic.Lib.Pipeline.Value
import Idealize.ShloMosaic.Lib.StableHlo.Run
import Idealize.ShloMosaic.Lib.ValueIdx

set_option maxRecDepth 16384

noncomputable section

namespace Cert.KernelIdeal.Points

open Cert.KernelIdeal Cert.KernelIdeal.Gen Cert.KernelIdeal.Body Idealize.ShloMosaic Idealize.ShloMosaic.TcCoe
open Idealize.SL.Sem Idealize.ShloMosaic.ValueIdx Idealize.ShloMosaic.StableHlo
open Idealize.ShloMosaic.Pipeline (Dat)

/-! ## The persistent buffers and the output block, at any float instance -/

section Generic

variable {F : FTy → Type} [FloatOps F]
variable (m : (ℓ : Loc nD τ sig) → Buf (Elt F) ℓ)

theorem N16 : cfg0.N = 16 := N_0

/-- The first point of the sequence point `n` belongs to. -/
def firstPt (n : ℕ) (h : n < cfg0.N) : Fin cfg0.N := ⟨4 * (n / 4), lt_of_le_of_lt (Nat.mul_div_le n 4) h⟩

theorem firstPt_of_mod (n : ℕ) (h : n < cfg0.N) (h0 : n % 4 = 0) : firstPt n h = ⟨n, h⟩ :=
  Fin.ext (by show 4 * (n / 4) = n; omega)

theorem firstPt_succ (n : ℕ) (h : n + 1 < cfg0.N) (h0 : ¬(n + 1) % 4 = 0) :
    firstPt (n + 1) h = firstPt n (Nat.lt_of_succ_lt h) :=
  Fin.ext (by show 4 * ((n + 1) / 4) = 4 * (n / 4); omega)

/-- The keys of the whole sequence, from the blocks point `t` reads. -/
def keysAt (c : Dev nD) (t : Fin cfg0.N) : Vec F S2048x1024 .bf16 := k0_pay3 (iblk m c 0 t) (iblk m c 2 t)
/-- The values of the whole sequence, from the blocks point `t` reads. -/
def valsAt (c : Dev nD) (t : Fin cfg0.N) : Vec F S2048x1024 .bf16 := k0_pay4 (iblk m c 0 t) (iblk m c 3 t)

/-- After any point the two persistent buffers hold the keys and values computed at the first point of its sequence. -/
theorem scratch_eq (c : Dev nD) : ∀ (n : ℕ) (h : n < cfg0.N),
    (outsAt0 m c n h).2.1 = keysAt m c (firstPt n h) ∧ (outsAt0 m c n h).2.2 = valsAt m c (firstPt n h) := by
  intro n
  induction n with
  | zero =>
    intro h
    rw [firstPt_of_mod 0 h rfl]
    have e := outsAt0_A m c ⟨0, h⟩ rfl
    rw [show outsAt0 m c 0 h = outsAt0 m c (⟨0, h⟩ : Fin cfg0.N).val (⟨0, h⟩ : Fin cfg0.N).isLt from rfl, e]
    dsimp only
    unfold keysAt valsAt
    exact ⟨(keys_first c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨0, h⟩ : Fin cfg0.N)).mpr rfl) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N))),
      (values_first c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨0, h⟩ : Fin cfg0.N)).mpr rfl) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)))⟩
  | succ n ih =>
    intro h
    by_cases h0 : (n + 1) % 4 = 0
    · rw [firstPt_of_mod (n + 1) h h0]
      have e := outsAt0_A m c ⟨n + 1, h⟩ h0
      rw [show outsAt0 m c (n + 1) h = outsAt0 m c (⟨n + 1, h⟩ : Fin cfg0.N).val (⟨n + 1, h⟩ : Fin cfg0.N).isLt from rfl, e]
      dsimp only
      unfold keysAt valsAt
      exact ⟨(keys_first c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n + 1, h⟩ : Fin cfg0.N)).mpr h0) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N))),
        (values_first c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n + 1, h⟩ : Fin cfg0.N)).mpr h0) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)))⟩
    · rw [firstPt_succ n h h0]
      have e := outsAt0_B m c ⟨n + 1, h⟩ h0
      rw [show outsAt0 m c (n + 1) h = outsAt0 m c (⟨n + 1, h⟩ : Fin cfg0.N).val (⟨n + 1, h⟩ : Fin cfg0.N).isLt from rfl, e]
      dsimp only
      unfold sout0_B_0 sout0_B_1
      exact ih (Nat.lt_of_succ_lt h)

/-- Every point's output block is the body's function of its own blocks and of its sequence's keys and values. -/
theorem out_eq (c : Dev nD) (t : Fin cfg0.N) :
    (outsAt0 m c t.val t.isLt).1
      = bodyVal (grid0.coords t) (iblk m c 0 t) (iblk m c 1 t) (keysAt m c (firstPt t.val t.isLt)) (valsAt m c (firstPt t.val t.isLt)) := by
  by_cases h0 : t.val % 4 = 0
  · have hf : firstPt t.val t.isLt = t := Fin.ext (by show 4 * (t.val / 4) = t.val; omega)
    rw [hf, outsAt0_A m c t h0]
    dsimp only
    unfold keysAt valsAt
    exact (out_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t))
  · have hlt : t.val - 1 < cfg0.N := Nat.lt_of_le_of_lt (Nat.sub_le _ _) t.isLt
    obtain ⟨i1, i2⟩ := scratch_eq m c (t.val - 1) hlt
    have hf : firstPt (t.val - 1) hlt = firstPt t.val t.isLt :=
      Fin.ext (by show 4 * ((t.val - 1) / 4) = 4 * (t.val / 4); omega)
    rw [outsAt0_B m c t h0]
    dsimp only
    refine (out_later c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t)
        (outsAt0 m c (t.val - 1) hlt).2.1 (outsAt0 m c (t.val - 1) hlt).2.2).trans ?_
    rw [i1, i2, hf]

end Generic

/-! ## The printed index maps, decided once over the grid -/

theorem idx_facts : ∀ t : Fin cfg0.N,
    win0_0.index t (0 : Fin 3) = t.val / 4 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 4 ∧ win0_4.index t (1 : Fin 3) = t.val % 4 ∧ win0_4.index t (2 : Fin 3) = 0
    ∧ ((grid0.coords t) 1).val = t.val % 4 :=
  (by decide +kernel : ∀ t : Fin grid0.N, _)

/-- The sequence point `t` works on. -/
def seqOf (t : Fin cfg0.N) : Fin 4 := ⟨t.val / 4, by have := t.isLt; have := N16; omega⟩
/-- The query tile point `t` works on. -/
def tileOf (t : Fin cfg0.N) : Fin 4 := ⟨t.val % 4, by omega⟩

theorem seqOf_firstPt (t : Fin cfg0.N) : seqOf (firstPt t.val t.isLt) = seqOf t :=
  Fin.ext (by show 4 * (t.val / 4) / 4 = t.val / 4; omega)

/-! ## At the ideal values: what the region finds, and the blocks' entries -/

section AtIdeal

variable (m : (ℓ : Loc nD τ sig) → Buf (Elt Ideal) ℓ) (ρ : Dev nD → PrngReg)

/-- The staged copy of the sequences is the argument array: the host's change of format is the identity. -/
theorem V_rows (c : Dev nD) : (V m c main_v0 : S4x2048x1024.Idx → EReal) = m ((c : Thread nD τ).loc main_arg0) := by
  dsimp only [Gen.V, Gen.hostOps0]; after_results; rfl
theorem V_wq (c : Dev nD) : (V m c main_v1 : S1024x1024.Idx → EReal) = m ((c : Thread nD τ).loc main_arg1) := by
  dsimp only [Gen.V, Gen.hostOps0]; after_results; rfl
theorem V_wk (c : Dev nD) : (V m c main_v2 : S1024x1024.Idx → EReal) = m ((c : Thread nD τ).loc main_arg2) := by
  dsimp only [Gen.V, Gen.hostOps0]; after_results; rfl
theorem V_wv (c : Dev nD) : (V m c main_v3 : S1024x1024.Idx → EReal) = m ((c : Thread nD τ).loc main_arg3) := by
  dsimp only [Gen.V, Gen.hostOps0]; after_results; rfl

/-- Row `r`, feature `f` of point `t`'s block of the sequences is that entry of sequence `t / 4`. -/
theorem iblk_rows (c : Dev nD) (t : Fin cfg0.N) (r : Fin 2048) (f : Fin 1024) :
    (iblk m c 0 t : S1x2048x1024.Idx → EReal) (ix3 (0 : Fin 1) r f) = m ((c : Thread nD τ).loc main_arg0) (ix3 (seqOf t) r f) := by
  obtain ⟨e0, e1, e2, -⟩ := idx_facts t
  unfold iblk
  rw [View.read_apply]
  show (V m c main_v0 : S4x2048x1024.Idx → EReal) _ = _
  rw [V_rows]
  congr 1
  funext a
  apply Fin.ext
  match a with
  | ⟨0, _⟩ => show win0_0.index t (0 : Fin 3) * 1 + 1 * 0 = t.val / 4; rw [e0]; omega
  | ⟨1, _⟩ => show win0_0.index t (1 : Fin 3) * 2048 + 1 * r.val = r.val; rw [e1]; omega
  | ⟨2, _⟩ => show win0_0.index t (2 : Fin 3) * 1024 + 1 * f.val = f.val; rw [e2]; omega

/-- The weight blocks are the weight arrays. -/
theorem iblk_wq (c : Dev nD) (t : Fin cfg0.N) (f d : Fin 1024) :
    (iblk m c 1 t : S1024x1024.Idx → EReal) (ix2 f d) = m ((c : Thread nD τ).loc main_arg1) (ix2 f d) := by
  obtain ⟨-, -, -, e0, e1, -⟩ := idx_facts t
  unfold iblk
  rw [View.read_apply]
  show (V m c main_v1 : S1024x1024.Idx → EReal) _ = _
  rw [V_wq]
  congr 1
  funext a
  apply Fin.ext
  match a with
  | ⟨0, _⟩ => show win0_1.index t (0 : Fin 2) * 1024 + 1 * f.val = f.val; rw [e0]; omega
  | ⟨1, _⟩ => show win0_1.index t (1 : Fin 2) * 1024 + 1 * d.val = d.val; rw [e1]; omega

theorem iblk_wk (c : Dev nD) (t : Fin cfg0.N) (f d : Fin 1024) :
    (iblk m c 2 t : S1024x1024.Idx → EReal) (ix2 f d) = m ((c : Thread nD τ).loc main_arg2) (ix2 f d) := by
  obtain ⟨-, -, -, -, -, e0, e1, -⟩ := idx_facts t
  unfold iblk
  rw [View.read_apply]
  show (V m c main_v2 : S1024x1024.Idx → EReal) _ = _
  rw [V_wk]
  congr 1
  funext a
  apply Fin.ext
  match a with
  | ⟨0, _⟩ => show win0_2.index t (0 : Fin 2) * 1024 + 1 * f.val = f.val; rw [e0]; omega
  | ⟨1, _⟩ => show win0_2.index t (1 : Fin 2) * 1024 + 1 * d.val = d.val; rw [e1]; omega

theorem iblk_wv (c : Dev nD) (t : Fin cfg0.N) (f d : Fin 1024) :
    (iblk m c 3 t : S1024x1024.Idx → EReal) (ix2 f d) = m ((c : Thread nD τ).loc main_arg3) (ix2 f d) := by
  obtain ⟨-, -, -, -, -, -, -, e0, e1, -⟩ := idx_facts t
  unfold iblk
  rw [View.read_apply]
  show (V m c main_v3 : S1024x1024.Idx → EReal) _ = _
  rw [V_wv]
  congr 1
  funext a
  apply Fin.ext
  match a with
  | ⟨0, _⟩ => show win0_3.index t (0 : Fin 2) * 1024 + 1 * f.val = f.val; rw [e0]; omega
  | ⟨1, _⟩ => show win0_3.index t (1 : Fin 2) * 1024 + 1 * d.val = d.val; rw [e1]; omega

/-! ## From the blocks to the array -/

/-- An index of the output array is in point `t`'s block iff each coordinate is in the block's range on its axis. -/
theorem mem_blk (t : Fin cfg0.N) (i : S4x2048x1024.Idx) :
    i ∈ ((cfg0.win 4).blk t).view.set ↔ ∀ a : Fin 3, win0_4.index t a * S1x512x1024.size a ≤ (i a).val ∧ (i a).val < win0_4.index t a * S1x512x1024.size a + S1x512x1024.size a := by
  show i ∈ ((View.whole main_v4).slice (win0_4.rect t)).set ↔ _
  rw [View.set_slice_whole, Rect.mem_set_unit]
  exact Iff.rfl

variable (c : Dev nD) (Gf : S4x2048x1024.Idx → EReal)

/-- If every point's block agrees entry by entry with `Gf` at rows `512 * (t % 4) + p` of sequence `t / 4`, then what the
    point writes back is its block of `Gf`. -/
theorem flushed_of
    (hG : ∀ (t : Fin cfg0.N) (p : Fin 512) (e : Fin 1024),
      ((outsAt0 m c t.val t.isLt).1 : S1x512x1024.Idx → EReal) (ix3 (0 : Fin 1) p e) = Gf (ix3 (seqOf t) (Cert.Attn.key (tileOf t) p) e))
    (t : Fin cfg0.N) :
    (dats m 0 c).flushed 4 t = ((cfg0.win 4).blk t).view.read (Elt Ideal) Gf := by
  rw [Cert.KernelIdeal.Value.flushed4]
  obtain ⟨-, -, -, -, -, -, -, -, -, e0, e1, e2, -⟩ := idx_facts t
  funext y
  show ((outsAt0 m c t.val t.isLt).1 : S1x512x1024.Idx → EReal) y = Gf (((cfg0.win 4).blk t).view.emb y)
  obtain ⟨z, p, e, rfl⟩ : ∃ (z : Fin 1) (p : Fin 512) (e : Fin 1024), (y : S1x512x1024.Idx) = ix3 z p e := ⟨y 0, y 1, y 2, eq_ix3 y⟩
  obtain rfl : z = 0 := Subsingleton.elim _ _
  rw [hG t p e]
  congr 1
  funext a
  apply Fin.ext
  match a with
  | ⟨0, _⟩ => show t.val / 4 = win0_4.index t (0 : Fin 3) * 1 + 1 * 0; rw [e0]; omega
  | ⟨1, _⟩ => show t.val % 4 * 512 + p.val = win0_4.index t (1 : Fin 3) * 512 + 1 * p.val; rw [e1]; omega
  | ⟨2, _⟩ => show e.val = win0_4.index t (2 : Fin 3) * 1024 + 1 * e.val; rw [e2]; omega

/-- … and, the 16 blocks covering the array, the array ends holding `Gf`. -/
theorem final_of
    (hG : ∀ (t : Fin cfg0.N) (p : Fin 512) (e : Fin 1024),
      ((outsAt0 m c t.val t.isLt).1 : S1x512x1024.Idx → EReal) (ix3 (0 : Fin 1) p e) = Gf (ix3 (seqOf t) (Cert.Attn.key (tileOf t) p) e)) :
    (dats m 0 c).arrAt 4 cfg0.N = Gf :=
  (dats m 0 c).arrAt_eq_of_cover 4 Gf (fun t _ => flushed_of m c Gf hG t) fun i => by
    have h0 : (i 0).val < 4 := (i 0).isLt
    have h1 : (i 1).val < 2048 := (i 1).isLt
    have h2 : (i 2).val < 1024 := (i 2).isLt
    have hN := N16
    refine ⟨⟨(i 0).val * 4 + (i 1).val / 512, by omega⟩, flush0_4 _, ?_⟩
    rw [mem_blk]
    obtain ⟨-, -, -, -, -, -, -, -, -, e0, e1, e2, -⟩ := idx_facts ⟨(i 0).val * 4 + (i 1).val / 512, by omega⟩
    intro a
    match a with
    | ⟨0, _⟩ =>
      show win0_4.index _ (0 : Fin 3) * 1 ≤ (i 0).val ∧ (i 0).val < win0_4.index _ (0 : Fin 3) * 1 + 1
      rw [e0]; dsimp only; omega
    | ⟨1, _⟩ =>
      show win0_4.index _ (1 : Fin 3) * 512 ≤ (i 1).val ∧ (i 1).val < win0_4.index _ (1 : Fin 3) * 512 + 512
      rw [e1]; dsimp only; omega
    | ⟨2, _⟩ =>
      show win0_4.index _ (2 : Fin 3) * 1024 ≤ (i 2).val ∧ (i 2).val < win0_4.index _ (2 : Fin 3) * 1024 + 1024
      rw [e2]; omega

end AtIdeal

end Cert.KernelIdeal.Points

end
-- ==== Proof.LibSoftmaxShift.lean ====
/-
  Attention with a shifted exponential, on the extended reals.

  For real scores `a k`, real values `v k` over a finite nonempty index type, and ANY two real shifts `c` and `M`,

      (∑ k, e^(a k - c) · v k) / (∑ j, e^(a j - c))   =   ∑ k, (e^(a k - M) / ∑ j, e^(a j - M)) · v k.

  Both sides are `(∑ k, e^(a k) · v k) / (∑ j, e^(a j))`: a shift multiplies every exponential by one positive
  factor, `e^(a - c) = e^(a - M) · e^(M - c)`, which cancels between numerator and denominator; and a quotient by a
  nonzero real distributes over a finite sum of reals. The left side is how a kernel that keeps a running
  numerator and a running denominator computes attention with a fixed shift (scores clipped to `[-c, c]`); the
  right side is a softmax that subtracts the row maximum — or any other finite number — followed by the weighted sum.
  Nothing is asked of `M` beyond being finite: it need not be the maximum.

  The law needs the values finite: on the extended reals a quotient does not distribute over a sum that mixes
  `+∞` and `-∞`. It is stated first on the reals, then on the extended reals over the operations `Ideal.exp` and
  `Ideal.div` read at real arguments, and last for extended-real families known to be finite.
-/
import Idealize.ShloMosaic.PureOps.Ideal

noncomputable section

namespace Cert.Lib.SoftmaxShift

open Idealize.ShloMosaic

variable {K : Type*} [Fintype K]

/-- The coercion of the reals into the extended reals commutes with a finite sum. -/
theorem coe_sum (f : K → ℝ) : ((∑ k, f k : ℝ) : EReal) = ∑ k, (f k : EReal) := by
  classical
  induction (Finset.univ : Finset K) using Finset.induction_on with
  | empty => simp
  | insert x s hx ih => rw [Finset.sum_insert hx, Finset.sum_insert hx, EReal.coe_add, ih]

/-- A sum of exponentials over a nonempty index type is positive. -/
theorem sum_exp_pos [Nonempty K] (a : K → ℝ) (c : ℝ) : 0 < ∑ j, Real.exp (a j - c) :=
  Finset.sum_pos (fun j _ => Real.exp_pos _) Finset.univ_nonempty

/-- The law on the reals: the shift cancels, and the quotient goes inside the sum. -/
theorem real_law [Nonempty K] (a v : K → ℝ) (c M : ℝ) :
    (∑ k, Real.exp (a k - c) * v k) / (∑ j, Real.exp (a j - c))
      = ∑ k, (Real.exp (a k - M) / ∑ j, Real.exp (a j - M)) * v k := by
  have hE : Real.exp (M - c) ≠ 0 := (Real.exp_pos _).ne'
  have he : ∀ k, Real.exp (a k - c) = Real.exp (a k - M) * Real.exp (M - c) := fun k => by
    rw [← Real.exp_add]; congr 1; ring
  have h1 : ∑ k, Real.exp (a k - c) * v k = (∑ k, Real.exp (a k - M) * v k) * Real.exp (M - c) := by
    rw [Finset.sum_mul]; exact Finset.sum_congr rfl (fun k _ => by rw [he k]; ring)
  have h2 : ∑ j, Real.exp (a j - c) = (∑ j, Real.exp (a j - M)) * Real.exp (M - c) := by
    rw [Finset.sum_mul]; exact Finset.sum_congr rfl (fun j _ => he j)
  rw [h1, h2, mul_div_mul_right _ _ hE, Finset.sum_div]
  exact Finset.sum_congr rfl (fun k _ => by ring)

/-- `Ideal.div` of two reals with a nonzero divisor is the real quotient. -/
theorem div_coe_coe (x y : ℝ) (hy : y ≠ 0) : Ideal.div (x : EReal) (y : EReal) = ((x / y : ℝ) : EReal) := by
  rw [Ideal.div_coe hy, ← EReal.coe_mul]; congr 1; ring

/-- The law on the extended reals, at real arguments, over `Ideal.exp` and `Ideal.div`. -/
theorem attn_shift [Nonempty K] (a v : K → ℝ) (c M : ℝ) :
    Ideal.div (∑ k, Ideal.exp ((a k : EReal) - (c : EReal)) * (v k : EReal)) (∑ j, Ideal.exp ((a j : EReal) - (c : EReal)))
      = ∑ k, Ideal.div (Ideal.exp ((a k : EReal) - (M : EReal))) (∑ j, Ideal.exp ((a j : EReal) - (M : EReal))) * (v k : EReal) := by
  have hA : (∑ j, Real.exp (a j - c)) ≠ 0 := (sum_exp_pos a c).ne'
  have hB : (∑ j, Real.exp (a j - M)) ≠ 0 := (sum_exp_pos a M).ne'
  simp only [← EReal.coe_sub, Ideal.exp_coe, ← EReal.coe_mul, ← coe_sum]
  rw [div_coe_coe _ _ hA]
  simp only [div_coe_coe _ _ hB, ← EReal.coe_mul, ← coe_sum]
  exact congrArg _ (real_law a v c M)

/-- The same with the keys in tiles: the key index a pair (tile, position inside the tile), the left side as a kernel
    accumulates it — a sum over tiles of the sums inside each tile, for numerator and denominator alike — the right side
    over all the keys at once. A double sum over tiles and positions is the sum over the pairs. -/
theorem attn_shift_tiled {T B : Type*} [Fintype T] [Fintype B] [Nonempty T] [Nonempty B] (a v : T → B → ℝ) (c M : ℝ) :
    Ideal.div (∑ t, ∑ b, Ideal.exp ((a t b : EReal) - (c : EReal)) * (v t b : EReal))
        (∑ t, ∑ b, Ideal.exp ((a t b : EReal) - (c : EReal)))
      = ∑ p : T × B, Ideal.div (Ideal.exp ((a p.1 p.2 : EReal) - (M : EReal)))
          (∑ q : T × B, Ideal.exp ((a q.1 q.2 : EReal) - (M : EReal))) * (v p.1 p.2 : EReal) := by
  rw [← Fintype.sum_prod_type' (fun t b => Ideal.exp ((a t b : EReal) - (c : EReal)) * (v t b : EReal)),
    ← Fintype.sum_prod_type' (fun t b => Ideal.exp ((a t b : EReal) - (c : EReal)))]
  exact attn_shift (fun p : T × B => a p.1 p.2) (fun p : T × B => v p.1 p.2) c M

/-- Clipping ANY extended real — an infinity too — between two reals `lo ≤ hi` gives a real number of `[lo, hi]`:
    clipped scores are finite whatever the scores were, so the law below asks nothing of the unclipped scores. -/
theorem clip_real (s : EReal) (lo hi : ℝ) (h : lo ≤ hi) :
    ∃ r : ℝ, min (hi : EReal) (max (lo : EReal) s) = (r : EReal) ∧ lo ≤ r ∧ r ≤ hi := by
  induction s using EReal.rec with
  | bot =>
    refine ⟨lo, ?_, le_rfl, h⟩
    rw [max_bot_right, min_eq_right (EReal.coe_le_coe_iff.2 h)]
  | coe x =>
    refine ⟨min hi (max lo x), ?_, le_min h (le_max_left _ _), min_le_left _ _⟩
    rw [EReal.coe_strictMono.monotone.map_min, EReal.coe_strictMono.monotone.map_max]
  | top =>
    refine ⟨hi, ?_, h, le_rfl⟩
    rw [max_top_right, min_top_right]

/-- The same for extended-real families known to be finite: scores `s`, values `v`, shifts `c` and `M`. -/
theorem attn_shift_of_finite [Nonempty K] (s v : K → EReal) (c M : EReal)
    (hs : ∀ k, ∃ r : ℝ, s k = r) (hv : ∀ k, ∃ r : ℝ, v k = r) (hc : ∃ r : ℝ, c = r) (hM : ∃ r : ℝ, M = r) :
    Ideal.div (∑ k, Ideal.exp (s k - c) * v k) (∑ j, Ideal.exp (s j - c))
      = ∑ k, Ideal.div (Ideal.exp (s k - M)) (∑ j, Ideal.exp (s j - M)) * v k := by
  choose a ha using hs
  choose w hw using hv
  obtain ⟨c', rfl⟩ := hc
  obtain ⟨M', rfl⟩ := hM
  simp only [ha, hw]
  exact attn_shift a w c' M'

end Cert.Lib.SoftmaxShift

end
-- ==== Proof.LibRowBlocks.lean ====
/- General lemmas about a reduction carried block by block.

   A kernel that reduces a long axis in tiles keeps a running value: the first tile combines its own reduction with the
   neutral start, every later tile combines its reduction with what the tile before left. The lemmas below say that the value
   after the last tile is the reduction of all the tiles' reductions, for a sum in any commutative additive monoid (the extended
   reals at the ideal reading of floats) and for a maximum in any join-semilattice, and that a sum over positions
   `a · B + b` of a long axis is the sum over tiles `a` of the sums over positions `b` inside the tile. Nothing here mentions a
   program. -/
import Mathlib.Algebra.BigOperators.Fin
import Mathlib.Data.Finset.Range
import Mathlib.Algebra.BigOperators.Group.Finset.Basic
import Mathlib.Order.Lattice
import Mathlib.Data.Finset.Lattice.Fold
import Mathlib.Logic.Equiv.Fin.Basic

namespace RowBlocks

open Finset

/-- A running sum: `S 0 = z + s 0` and `S (t + 1) = S t + s (t + 1)` up to tile `n` give `S n = z + ∑ t ≤ n, s t`. -/
theorem running_sum {α : Type*} [AddCommMonoid α] (s S : ℕ → α) (z : α) (n : ℕ) (h0 : S 0 = z + s 0)
    (hs : ∀ t, t < n → S (t + 1) = S t + s (t + 1)) : S n = z + ∑ t ∈ range (n + 1), s t := by
  induction n with
  | zero => simpa using h0
  | succ k ih =>
    rw [hs k (Nat.lt_succ_self k), ih fun t ht => hs t (Nat.lt_succ_of_lt ht), sum_range_succ (fun t => s t) (k + 1), add_assoc]

/-- A running maximum: `M 0 = z ⊔ m 0` and `M (t + 1) = M t ⊔ m (t + 1)` up to tile `n` give `M n = z ⊔ sup_{t ≤ n} m t`. -/
theorem running_sup {β : Type*} [SemilatticeSup β] (m M : ℕ → β) (z : β) (n : ℕ) (h0 : M 0 = z ⊔ m 0)
    (hs : ∀ t, t < n → M (t + 1) = M t ⊔ m (t + 1)) : M n = z ⊔ (range (n + 1)).sup' nonempty_range_add_one m := by
  induction n with
  | zero => simpa using h0
  | succ k ih =>
    rw [hs k (Nat.lt_succ_self k), ih fun t ht => hs t (Nat.lt_succ_of_lt ht), sup_assoc]
    congr 1
    apply le_antisymm
    · refine sup_le (sup'_le _ _ fun t ht => le_sup' m (mem_range.mpr (Nat.lt_succ_of_lt (mem_range.mp ht)))) (le_sup' m (mem_range.mpr (Nat.lt_succ_self _)))
    · refine sup'_le _ _ fun t ht => ?_
      rcases Nat.lt_succ_iff_lt_or_eq.mp (mem_range.mp ht) with h | h
      · exact le_sup_of_le_left (le_sup' m (mem_range.mpr h))
      · subst h; exact le_sup_right

/-- A sum over the positions of a long axis of extent `A · B`, position `a · B + b` being position `b` of tile `a`, is the sum
    over the tiles of the sums inside each tile. -/
theorem sum_tiles {α : Type*} [AddCommMonoid α] (A B : ℕ) (f : Fin (A * B) → α) :
    ∑ k : Fin (A * B), f k = ∑ a : Fin A, ∑ b : Fin B, f (finProdFinEquiv (a, b)) := by
  rw [← Fintype.sum_prod_type' (fun a b => f (finProdFinEquiv (a, b)))]
  exact (Equiv.sum_comp finProdFinEquiv f).symm

end RowBlocks
-- ==== Proof.OnlineSoftmax.lean ====
/-
  The running softmax over tiles of keys equals the softmax over all the keys at once.

  A weighted sum ∑ₘ wₘ · vₘ with softmax weights wₘ = e^(xₘ − c) / ∑ⱼ e^(xⱼ − c) does not depend on the finite
  number c that is subtracted. The running form visits the keys a tile at a time and keeps three numbers:
  a running maximum M, a running denominator L = ∑ e^(x − M) and a running numerator A = ∑ e^(x − M) · v, the sums
  over the keys seen so far. A new tile moves the maximum to M' ≥ M; since e^(M − M') · e^(x − M) = e^(x − M'),
  multiplying what was accumulated by e^(M − M') re-expresses it at the new shift, and the tile's own terms are
  added at that shift. So after every tile the state is (M, L(M), A(M)) where L(·) and A(·) are the sums over the keys
  seen so far read as FUNCTIONS of the shift; the first tile starts from (−∞, 0, 0), where the rescaling factor
  multiplies zero. After the last tile A(M) / L(M) is the weighted sum at the shift M, which is the weighted sum at
  the shift the reference uses. Everything is for real (finite) scores and values, written in the extended reals.

  Also here: three bit patterns of 32-bit floats read as numbers (1/32, −∞ and 1), and two small facts about
  finite sums of products of reals inside the extended reals.
-/
import proofs.«135320_j11003706212570_2_alg».proof.Proof.AttnSpec
import proofs.«135320_j11003706212570_2_alg».proof.Proof.LibSoftmaxShift
import proofs.«135320_j11003706212570_2_alg».proof.Proof.LibRowBlocks

noncomputable section

namespace Cert.Attn

open Idealize.ShloMosaic
open Cert.Lib.HostSoftmax (softWeight rowShift fold_max_real rowShift_real)
open Cert.Lib.SoftmaxShift (coe_sum sum_exp_pos div_coe_coe attn_shift)

/-! ## Sums over the keys seen so far, as functions of the shift -/

section Tiles

variable {B : ℕ}

/-- A tile's denominator at shift c. -/
def den (s : Fin B → ℝ) (c : ℝ) : ℝ := ∑ i, Real.exp (s i - c)

/-- A tile's numerator at shift c. -/
def num (s v : Fin B → ℝ) (c : ℝ) : ℝ := ∑ i, Real.exp (s i - c) * v i

/-- A function of the shift that moves from shift c to shift c' on multiplication by e^(c − c'). -/
def Shifts (f : ℝ → ℝ) : Prop := ∀ c c' : ℝ, Real.exp (c - c') * f c = f c'

theorem exp_shift (x c c' : ℝ) : Real.exp (c - c') * Real.exp (x - c) = Real.exp (x - c') := by
  rw [← Real.exp_add]; congr 1; ring

theorem den_shifts (s : Fin B → ℝ) : Shifts (den s) := fun c c' => by
  unfold den
  rw [Finset.mul_sum]
  exact Finset.sum_congr rfl fun i _ => exp_shift (s i) c c'

theorem num_shifts (s v : Fin B → ℝ) : Shifts (num s v) := fun c c' => by
  unfold num
  rw [Finset.mul_sum]
  exact Finset.sum_congr rfl fun i _ => by rw [← mul_assoc, exp_shift]

theorem Shifts.add {f g : ℝ → ℝ} (hf : Shifts f) (hg : Shifts g) : Shifts (fun c => f c + g c) := fun c c' => by
  show Real.exp (c - c') * (f c + g c) = f c' + g c'
  rw [mul_add, hf c c', hg c c']

/-- The largest score of a nonempty tile of reals is a real. -/
theorem tileMax_real [NeZero B] (s : Fin B → ℝ) : ∃ m : ℝ, tileMax (fun i => ((s i : ℝ) : EReal)) = (m : EReal) :=
  fold_max_real s Finset.univ (Finset.univ_nonempty_iff.mpr ⟨⟨0, Nat.pos_of_ne_zero (NeZero.ne B)⟩⟩)

/-- The first tile, from the empty state: the accumulated factor multiplies zero, and the state is the tile's own
    maximum, denominator and numerator. -/
theorem step_bot [NeZero B] (s v : Fin B → ℝ) : ∃ M' : ℝ,
    tileStep ((⊥ : EReal), (0 : EReal), (0 : EReal)) (fun i => ((s i : ℝ) : EReal)) (fun i => ((v i : ℝ) : EReal))
      = ((M' : EReal), ((den s M' : ℝ) : EReal), ((num s v M' : ℝ) : EReal)) := by
  obtain ⟨m, hm⟩ := tileMax_real s
  have hM : nextMax (⊥ : EReal) (fun i => ((s i : ℝ) : EReal)) = (m : EReal) := by
    unfold nextMax; rw [hm]; exact max_eq_right bot_le
  refine ⟨m, ?_⟩
  unfold tileStep nextDen nextNum
  dsimp only
  rw [hM, mul_zero, zero_add, zero_add]
  simp only [← EReal.coe_sub, Ideal.exp_coe, ← EReal.coe_mul, ← coe_sum]
  rfl

/-- A later tile, from a real state (M, f M, g M) whose denominator and numerator move with the shift: the new state
    is (M', f M' + the tile's denominator at M', g M' + the tile's numerator at M'). -/
theorem step_real [NeZero B] (f g : ℝ → ℝ) (hf : Shifts f) (hg : Shifts g) (M : ℝ) (s v : Fin B → ℝ) : ∃ M' : ℝ,
    tileStep ((M : EReal), ((f M : ℝ) : EReal), ((g M : ℝ) : EReal)) (fun i => ((s i : ℝ) : EReal)) (fun i => ((v i : ℝ) : EReal))
      = ((M' : EReal), ((f M' + den s M' : ℝ) : EReal), ((g M' + num s v M' : ℝ) : EReal)) := by
  obtain ⟨m, hm⟩ := tileMax_real s
  have hM : nextMax (M : EReal) (fun i => ((s i : ℝ) : EReal)) = ((max M m : ℝ) : EReal) := by
    unfold nextMax; rw [hm]; exact (EReal.coe_strictMono.monotone.map_max).symm
  refine ⟨max M m, ?_⟩
  unfold tileStep nextDen nextNum
  dsimp only
  rw [hM]
  simp only [← EReal.coe_sub, Ideal.exp_coe, ← EReal.coe_mul, ← coe_sum, ← EReal.coe_add]
  rw [hf M (max M m), hg M (max M m)]
  rfl

/-- Four tiles of real scores and values: the running form is the quotient of the whole numerator by the whole
    denominator, both at the last running maximum. -/
theorem online4_real [NeZero B] (s v : Fin 4 → Fin B → ℝ) : ∃ M : ℝ,
    online4 (fun t i => ((s t i : ℝ) : EReal)) (fun t i => ((v t i : ℝ) : EReal))
      = (((∑ t, num (s t) (v t) M) / (∑ t, den (s t) M) : ℝ) : EReal) := by
  obtain ⟨M0, h0⟩ := step_bot (s 0) (v 0)
  obtain ⟨M1, h1⟩ := step_real _ _ (den_shifts (s 0)) (num_shifts (s 0) (v 0)) M0 (s 1) (v 1)
  obtain ⟨M2, h2⟩ := step_real _ _ ((den_shifts (s 0)).add (den_shifts (s 1)))
    ((num_shifts (s 0) (v 0)).add (num_shifts (s 1) (v 1))) M1 (s 2) (v 2)
  obtain ⟨M3, h3⟩ := step_real _ _ (((den_shifts (s 0)).add (den_shifts (s 1))).add (den_shifts (s 2)))
    (((num_shifts (s 0) (v 0)).add (num_shifts (s 1) (v 1))).add (num_shifts (s 2) (v 2))) M2 (s 3) (v 3)
  refine ⟨M3, ?_⟩
  have hpos : ∀ t, 0 < den (s t) M3 := fun t =>
    haveI : Nonempty (Fin B) := ⟨⟨0, Nat.pos_of_ne_zero (NeZero.ne B)⟩⟩
    sum_exp_pos (s t) M3
  have hL : den (s 0) M3 + den (s 1) M3 + den (s 2) M3 + den (s 3) M3 ≠ 0 :=
    (add_pos (add_pos (add_pos (hpos 0) (hpos 1)) (hpos 2)) (hpos 3)).ne'
  unfold online4
  rw [h0, h1, h2, h3]
  dsimp only
  rw [Ideal.div_coe hL, one_mul, ← EReal.coe_mul, Fin.sum_univ_four, Fin.sum_univ_four]
  congr 1
  ring

end Tiles

/-! ## The keys of the four tiles are all the keys -/

/-- A sum over the 2048 keys is the sum over the four tiles of the sums over the 512 positions of each. -/
theorem sum_key {α : Type*} [AddCommMonoid α] (f : Fin 2048 → α) :
    ∑ m, f m = ∑ t : Fin 4, ∑ i : Fin 512, f (key t i) := by
  refine (RowBlocks.sum_tiles 4 512 f).trans ?_
  refine Finset.sum_congr rfl fun t _ => Finset.sum_congr rfl fun i _ => ?_
  refine congrArg f (Fin.ext ?_)
  show i.val + 512 * t.val = t.val * 512 + i.val
  omega

/-- THE RUNNING FORM IS THE REFERENCE'S FORMULA: over four tiles of 512 real scores and values, numerator times one
    over denominator is the sum of the values weighted by the softmax of the whole row shifted by its maximum. -/
theorem online4_eq (sc vv : Fin 2048 → ℝ) :
    online4 (fun (t : Fin 4) (i : Fin 512) => ((sc (key t i) : ℝ) : EReal)) (fun t i => ((vv (key t i) : ℝ) : EReal))
      = ∑ m : Fin 2048, softWeight (fun j => ((sc j : ℝ) : EReal)) (rowShift (fun j => ((sc j : ℝ) : EReal)) ⊥) m * ((vv m : ℝ) : EReal) := by
  obtain ⟨M, hM⟩ := online4_real (fun t i => sc (key t i)) (fun t i => vv (key t i))
  obtain ⟨Mr, hMr⟩ := rowShift_real sc
  have hL : (∑ j, Real.exp (sc j - M)) ≠ 0 := (sum_exp_pos sc M).ne'
  rw [hM, hMr]
  simp only [softWeight]
  rw [← attn_shift sc vv M Mr]
  simp only [← EReal.coe_sub, Ideal.exp_coe, ← EReal.coe_mul, ← coe_sum]
  rw [div_coe_coe _ _ hL, sum_key (fun m => Real.exp (sc m - M) * vv m), sum_key (fun m => Real.exp (sc m - M))]
  rfl

/-! ## Three bit patterns, and sums of products of reals -/

/-- The pattern of 2^(−5) = 1/32. -/
theorem ofBits_scale : Ideal.ofBits .f32 0x3D000000#32 = scale := by
  unfold scale
  simp [Ideal.ofBits, Ideal.ieee, -EReal.coe_mul]
  norm_num

/-- The pattern of −∞. -/
theorem ofBits_ninf : Ideal.ofBits .f32 0xFF800000#32 = (⊥ : EReal) := by
  simp [Ideal.ofBits, Ideal.ieee]

/-- The pattern of 1. -/
theorem ofBits_one : Ideal.ofBits .f32 0x3F800000#32 = (1 : EReal) := by
  simp [Ideal.ofBits, Ideal.ieee, -EReal.coe_mul]
  norm_num

/-- A finite sum of products of reals, inside the extended reals, is the real sum. -/
theorem sum_mul_real {n : ℕ} (f g : Fin n → ℝ) : (∑ e, (f e : EReal) * (g e : EReal)) = ((∑ e, f e * g e : ℝ) : EReal) := by
  simp only [← EReal.coe_mul, ← coe_sum]

/-- A constant real factor on one side of every product comes out of the sum. -/
theorem sum_mul_scale {n : ℕ} (q k : Fin n → ℝ) (c : ℝ) :
    (∑ e, ((q e : EReal) * (c : EReal)) * (k e : EReal)) = (∑ e, (q e : EReal) * (k e : EReal)) * (c : EReal) := by
  simp only [← EReal.coe_mul, ← coe_sum]
  congr 1
  rw [Finset.sum_mul]
  exact Finset.sum_congr rfl fun e _ => by ring

end Cert.Attn

end
-- ==== Proof.LibKeepdims.lean ====
/-
  General lemmas, independent of any program: the keep-dimensions layout operations read at an index, and
  reductions along one axis of a matrix read at an index, at the ideal values.

  * a vector `[a]` cast to a column `[a, 1]` reads, at `(i, 0)`, the vector at `i`;
  * a column `[a, 1]` broadcast to `[a, b]` reads, at `(i, j)`, the column at `(i, 0)`;
  * a minimum reduction along one axis is the fold of `min`, from the starting value, over that axis's coordinates
    (for a kernel's vector reduction and for the host's `reduce` alike);
  * a sum along either axis of a matrix, at a result index, is the `Fin`-indexed sum over the reduced coordinate.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibKeepdims

open Idealize.ShloMosaic Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A minimum reduction of a vector along ONE axis, read at the ideal values: the fold of `min` from the accumulator's
    value over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

section Matrix
variable {a b : ℕ} {φ : FTy}

/-- The minimum along the rows of a matrix: at `p`, the fold over the columns `q` of the entry `(p, q)`. -/
theorem min_axis1_apply (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (p : Fin a) :
    multiReduction .minimumf [1] ⟨1, ![a]⟩ src acc h hφ hacc (ix1 p)
      = (Finset.univ : Finset (Fin b)).fold min (Ideal.ofBits φ acc) (fun q => src (ix2 p q)) := by
  refine (multiReduction_minimumf_single src acc h hφ hacc (ix1 p)).trans ?_
  refine Finset.fold_congr fun q _ => ?_
  exact congrArg src (funext fun d => Fin.ext (by match d with | ⟨0, _⟩ => rfl | ⟨1, _⟩ => rfl))

/-- The minimum down the columns of a matrix: at `q`, the fold over the rows `p` of the entry `(p, q)`. -/
theorem min_axis0_apply (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ) (q : Fin b) :
    multiReduction .minimumf [0] ⟨1, ![b]⟩ src acc h hφ hacc (ix1 q)
      = (Finset.univ : Finset (Fin a)).fold min (Ideal.ofBits φ acc) (fun p => src (ix2 p q)) := by
  refine (multiReduction_minimumf_single src acc h hφ hacc (ix1 q)).trans ?_
  refine Finset.fold_congr fun p _ => ?_
  exact congrArg src (funext fun d => Fin.ext (by match d with | ⟨0, _⟩ => rfl | ⟨1, _⟩ => rfl))

/-- The sum down the columns of a matrix: at `q`, the sum over the rows `p` of the entry `(p, q)`. -/
theorem add_axis0_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ p : Fin a, src (ix2 p q) := by
  refine (Ideal.multiReduction_add_single src acc h hφ hacc (ix1 q)).trans ?_
  refine Finset.sum_congr rfl fun p _ => ?_
  exact congrArg src (funext fun d => Fin.ext (by match d with | ⟨0, _⟩ => rfl | ⟨1, _⟩ => rfl))

/-- The sum along the rows of a matrix: at `p`, the sum over the columns `q` of the entry `(p, q)`. -/
theorem add_axis1_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ q : Fin b, src (ix2 p q) := by
  refine (Ideal.multiReduction_add_single src acc h hφ hacc (ix1 p)).trans ?_
  refine Finset.sum_congr rfl fun q _ => ?_
  exact congrArg src (funext fun d => Fin.ext (by match d with | ⟨0, _⟩ => rfl | ⟨1, _⟩ => rfl))

end Matrix

end Cert.LibKeepdims

end
-- ==== Proof.LibMatmulSum.lean ====
/-
  A matrix product read at an entry, at the ideal values.

  For a product of an R-by-K matrix with a K-by-N matrix that contracts the left operand's second axis with the
  right operand's first, the entry at row r and column c is the plain sum over k of left[r,k] * right[k,c]:
  whether the product is the kernel's accumulate-into-zero or the host's, and whatever the element formats (a
  change of format is the identity on extended reals). The dimension record says which coordinate of each
  operand index comes from the output index and which from the contraction index; those four facts are the
  hypotheses, and re-indexing the contraction index by its single coordinate gives the sum over `Fin K`.
-/
import Idealize.ShloMosaic.PureOps.Ideal.Laws
import Idealize.ShloMosaic.Lib.ValueIdx

noncomputable section

namespace Cert.GraphConv

open Idealize.ShloMosaic Idealize.ShloMosaic.ValueIdx

variable {R K N : ℕ} {φ₁ φ₂ : FTy}

/-- The operand indices of a row-by-column product, from the four coordinate facts of its dimension record. -/
theorem dot_operand_indices (D : DotDims ⟨2, ![R, K]⟩ ⟨2, ![K, N]⟩ ⟨2, ![R, N]⟩)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (i : (⟨2, ![R, N]⟩ : Shape).Idx) (k : Fin K) :
    D.lhsIdx i ((contrEquiv1 D K hr hs).symm k) = ix2 (i 0) k
      ∧ D.rhsIdx i ((contrEquiv1 D K hr hs).symm k) = ix2 k (i 1) := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- A kernel's matrix product into a zero accumulator, read at an entry: the sum over k of the operands' products. -/
theorem matmul_zero_sum (D : DotDims ⟨2, ![R, K]⟩ ⟨2, ![K, N]⟩ ⟨2, ![R, N]⟩) (prec : Option ContractPrecision)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.matmul D prec l r (constant (F := Ideal) ⟨2, ![R, N]⟩ .f32 0x00000000#32) i
      = ∑ k : Fin K, l (ix2 (i 0) k) * r (ix2 k (i 1)) := by
  rw [Ideal.matmul_constant_zero_apply, ← Equiv.sum_comp (contrEquiv1 D K hr hs).symm]
  refine Finset.sum_congr rfl fun k _ => ?_
  obtain ⟨el, er⟩ := dot_operand_indices D hr hs hl0 hl1 hr0 hr1 i k
  rw [el, er]
  rfl

/-- The host's matrix product read at an entry: the same sum. -/
theorem dotGeneral_sum (D : DotDims ⟨2, ![R, K]⟩ ⟨2, ![K, N]⟩ ⟨2, ![R, N]⟩) (prec : Option ContractPrecision) (sched : HostSchedule)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.dotGeneral D prec sched l r i
      = ∑ k : Fin K, l (ix2 (i 0) k) * r (ix2 k (i 1)) := by
  rw [Ideal.dotGeneral_apply, ← Equiv.sum_comp (contrEquiv1 D K hr hs).symm]
  refine Finset.sum_congr rfl fun k _ => ?_
  obtain ⟨el, er⟩ := dot_operand_indices D hr hs hl0 hl1 hr0 hr1 i k
  rw [el, er]
  rfl

end Cert.GraphConv

end
-- ==== Proof.KernelEntry.lean ====
/-
  The fused attention kernel's arithmetic, read at one entry of its output block, at the ideal values.

  The body works on a tile of 512 query rows q (already projected and scaled) and runs over the keys in four tiles of
  512 rows. For one tile with key rows k and value rows v, and with m, l, a what the three running buffers hold
  (a column of maxima, a column of denominators, a block of numerators):

    * the score tile is q · kᵀ: entry (p, j) is the inner product ∑_d q(p, d) · k(j, d) of query row p with key row j;
    * the new maximum of row p is max(m(p), max_j score(p, j)), the row maximum folded from −∞;
    * what was accumulated is rescaled by e^(m(p) − new maximum), the tile's scores become e^(score(p, j) − new maximum);
    * the new denominator of row p is the rescaled l(p) plus the sum over j of those exponentials;
    * the new numerator at (p, e) is the rescaled a(p, e) plus ∑_j e^(score(p, j) − new maximum) · v(j, e), the second
      matrix product of the tile.

  At a fixed query row p and output feature e these are exactly one step of the running form of AttnSpec
  (nextMax, nextDen, nextNum) on the triple (m(p), l(p), a(p, e)), with the scores of row p against the tile's keys and
  the tile's values at feature e. The three buffers start as −∞, 0 and 0; the four tiles are the same operations four
  times; and the output entry is the last numerator times one over the last denominator. So the entry is online4 of
  the four tiles' scores and values. A change of float format is the identity on extended reals, and a reshaping to the
  same shape is the identity, so neither appears in the result.
-/
import proofs.«135320_j11003706212570_2_alg».proof.Proof.KernelBody
import proofs.«135320_j11003706212570_2_alg».proof.Proof.AttnSpec
import proofs.«135320_j11003706212570_2_alg».proof.Proof.OnlineSoftmax
import proofs.«135320_j11003706212570_2_alg».proof.Proof.LibKeepdims
import proofs.«135320_j11003706212570_2_alg».proof.Proof.LibMatmulSum
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx
open Cert.LibKeepdims (shapeCast_a_a1_apply broadcastTo_a1_ab_apply add_axis1_apply)
open Cert.Attn (tileMax nextMax nextDen nextNum tileStep online4)

/-! ## The score tile -/

abbrev dQK := dot_S512x1024_S512x1024_S512x512_1_1_0_0_n_n

theorem dQK_l0 (i : S512x512.Idx) (c : dQK.contr.Idx) : (dQK.lhsIdx i c 0).val = (i 0).val := by
  unfold DotDims.lhsIdx
  rw [dif_neg (show ¬(0 : Fin S512x1024.rank) ∈ dQK.lhsBatch by decide),
    dif_pos (show (0 : Fin S512x1024.rank) ∈ dQK.lhsNonContracting by decide)]
  rfl

theorem dQK_l1 (i : S512x512.Idx) (c : dQK.contr.Idx) : (dQK.lhsIdx i c 1).val = (c ⟨0, by decide⟩).val :=
  dQK.lhsIdx_val_of_single rfl i c

theorem dQK_r0 (i : S512x512.Idx) (c : dQK.contr.Idx) : (dQK.rhsIdx i c 0).val = (i 1).val := by
  unfold DotDims.rhsIdx
  rw [dif_neg (show ¬(0 : Fin S512x1024.rank) ∈ dQK.rhsBatch by decide),
    dif_pos (show (0 : Fin S512x1024.rank) ∈ dQK.rhsNonContracting by decide)]
  rfl

theorem dQK_r1 (i : S512x512.Idx) (c : dQK.contr.Idx) : (dQK.rhsIdx i c 1).val = (c ⟨0, by decide⟩).val :=
  dQK.rhsIdx_val_of_single rfl i c

/-- The score of query row p against key row j of the tile: the inner product of the two rows. -/
theorem pay9_apply (q : FVec Ideal S512x1024 .bf16) (k : Vec Ideal S512x1024 .bf16) (p j : Fin 512) :
    k0_pay9 (F := Ideal) q k (ix2 p j) = ∑ d : Fin 1024, q (ix2 p d) * k (ix2 j d) := by
  unfold k0_pay9
  show FloatOps.matmul dQK none q k (constant (F := Ideal) S512x512 .f32 0x00000000#32) (ix2 p j) = _
  rw [Ideal.matmul_constant_zero_apply, ← Equiv.sum_comp (contrEquiv1 dQK 1024 rfl rfl).symm]
  refine Finset.sum_congr rfl fun d _ => ?_
  have hd := contrEquiv1_symm_val dQK 1024 rfl rfl d
  have el : dQK.lhsIdx (ix2 p j) ((contrEquiv1 dQK 1024 rfl rfl).symm d) = ix2 p d := funext fun a => Fin.ext (by
    match a with
    | ⟨0, _⟩ => exact dQK_l0 _ _
    | ⟨1, _⟩ => exact (dQK_l1 _ _).trans hd)
  have er : dQK.rhsIdx (ix2 p j) ((contrEquiv1 dQK 1024 rfl rfl).symm d) = ix2 j d := funext fun a => Fin.ext (by
    match a with
    | ⟨0, _⟩ => exact dQK_r0 _ _
    | ⟨1, _⟩ => exact (dQK_r1 _ _).trans hd)
  rw [el, er]

/-! ## The empty state, and the last operation -/

theorem pay6_apply (p : Fin 512) : k0_pay6 (F := Ideal) (ix2 p (0 : Fin 1)) = (⊥ : EReal) := by
  unfold k0_pay6
  rw [shapeCast_self]
  exact Cert.Attn.ofBits_ninf

theorem pay7_apply (p : Fin 512) : k0_pay7 (F := Ideal) (ix2 p (0 : Fin 1)) = (0 : EReal) := by
  unfold k0_pay7
  rw [shapeCast_self]
  exact Ideal.ofBits_zero_f32

theorem pay8_apply (p : Fin 512) (e : Fin 1024) : k0_pay8 (F := Ideal) (ix2 p e) = (0 : EReal) := by
  unfold k0_pay8
  rw [shapeCast_self]
  exact Ideal.ofBits_zero_f32

theorem pay1_apply (a : Vec Ideal S512x1024 .f32) (l : Vec Ideal S512x1 .f32) (p : Fin 512) (e : Fin 1024) :
    k0_pay1 (F := Ideal) a l (ix3 (0 : Fin 1) p e) = a (ix2 p e) * Ideal.div 1 (l (ix2 p (0 : Fin 1))) := by
  unfold k0_pay1
  refine (shapeCast_apply _ _ (ix3 (0 : Fin 1) p e) (ix2 p e) ?_).trans ?_
  · rw [Shape.rowMajor_val_two, Shape.rowMajor_val_three]
    show p.val * 1024 + e.val = ((0 : Fin 1).val * 512 + p.val) * 1024 + e.val
    simp
  · rw [mulf_apply, broadcastTo_a1_ab_apply, divf_apply, broadcast_apply]
    show a (ix2 p e) * Ideal.div (Ideal.ofBits .f32 0x3F800000#32) _ = _
    rw [Cert.Attn.ofBits_one]

/-! ## One tile -/

/-- The running maximum after the tile: the larger of the old one and the row's largest score in the tile. -/
theorem pay10_apply (q : FVec Ideal S512x1024 .bf16) (k : Vec Ideal S512x1024 .bf16) (m : Vec Ideal S512x1 .f32) (p : Fin 512) :
    k0_pay10 (F := Ideal) q k m (ix2 p (0 : Fin 1))
      = nextMax (m (ix2 p (0 : Fin 1))) (fun j => k0_pay9 (F := Ideal) q k (ix2 p j)) := by
  unfold k0_pay10
  dsimp only
  rw [maximumf_apply, shapeCast_a_a1_apply]
  unfold nextMax tileMax
  refine congrArg (max (m (ix2 p (0 : Fin 1)))) ?_
  refine (Ideal.multiReduction_maximumf_single (k0_pay9 (F := Ideal) q k) 0xFF800000#32 reduces_S512x512_S512 (.inl rfl) rfl (ix1 p)).trans ?_
  show Finset.fold max (Ideal.ofBits .f32 0xFF800000#32) _ _ = _
  rw [Cert.Attn.ofBits_ninf]
  refine Finset.fold_congr fun j _ => ?_
  exact congrArg (k0_pay9 (F := Ideal) q k) (funext fun d => Fin.ext (by match d with | ⟨0, _⟩ => rfl | ⟨1, _⟩ => rfl))

/-- The factor that rescales what was accumulated. -/
theorem pay11_apply (q : FVec Ideal S512x1024 .bf16) (k : Vec Ideal S512x1024 .bf16) (m m' : Vec Ideal S512x1 .f32) (p : Fin 512) :
    k0_pay11 (F := Ideal) q k m m' (ix2 p (0 : Fin 1))
      = Ideal.exp (m' (ix2 p (0 : Fin 1)) - k0_pay10 (F := Ideal) q k m (ix2 p (0 : Fin 1))) := rfl

/-- The tile's exponentials, shifted by the new running maximum. -/
theorem pay12_apply (q : FVec Ideal S512x1024 .bf16) (k : Vec Ideal S512x1024 .bf16) (m : Vec Ideal S512x1 .f32) (p j : Fin 512) :
    k0_pay12 (F := Ideal) q k m (ix2 p j)
      = Ideal.exp (k0_pay9 (F := Ideal) q k (ix2 p j) - k0_pay10 (F := Ideal) q k m (ix2 p (0 : Fin 1))) := by
  unfold k0_pay12
  show Ideal.exp (k0_pay9 (F := Ideal) q k (ix2 p j)
    - broadcastTo S512x512 (k0_pay10 (F := Ideal) q k m) broadcasts_S512x1_S512x512 (ix2 p j)) = _
  rw [broadcastTo_a1_ab_apply]

/-- The running denominator after the tile. -/
theorem pay13_apply (q : FVec Ideal S512x1024 .bf16) (k : Vec Ideal S512x1024 .bf16) (m l : Vec Ideal S512x1 .f32) (p : Fin 512) :
    k0_pay13 (F := Ideal) q k m m l (ix2 p (0 : Fin 1))
      = nextDen (m (ix2 p (0 : Fin 1))) (l (ix2 p (0 : Fin 1))) (fun j => k0_pay9 (F := Ideal) q k (ix2 p j)) := by
  unfold k0_pay13
  dsimp only
  rw [shapeCast_self, addf_apply, mulf_apply, shapeCast_a_a1_apply]
  refine (congrArg (_ + ·) (add_axis1_apply (k0_pay12 (F := Ideal) q k m) 0x00000000#32 reduces_S512x512_S512 (.inl rfl) rfl p)).trans ?_
  unfold nextDen
  simp only [pay12_apply, pay11_apply, pay10_apply]

abbrev dPV := dot_S512x512_S512x1024_S512x1024_1_0_0_1_n_n

theorem dPV_l0 (i : S512x1024.Idx) (c : dPV.contr.Idx) : (dPV.lhsIdx i c 0).val = (i 0).val := by
  unfold DotDims.lhsIdx
  rw [dif_neg (show ¬(0 : Fin S512x512.rank) ∈ dPV.lhsBatch by decide),
    dif_pos (show (0 : Fin S512x512.rank) ∈ dPV.lhsNonContracting by decide)]
  rfl

theorem dPV_l1 (i : S512x1024.Idx) (c : dPV.contr.Idx) : (dPV.lhsIdx i c 1).val = (c ⟨0, by decide⟩).val :=
  dPV.lhsIdx_val_of_single rfl i c

theorem dPV_r0 (i : S512x1024.Idx) (c : dPV.contr.Idx) : (dPV.rhsIdx i c 0).val = (c ⟨0, by decide⟩).val :=
  dPV.rhsIdx_val_of_single rfl i c

theorem dPV_r1 (i : S512x1024.Idx) (c : dPV.contr.Idx) : (dPV.rhsIdx i c 1).val = (i 1).val := by
  unfold DotDims.rhsIdx
  rw [dif_neg (show ¬(1 : Fin S512x1024.rank) ∈ dPV.rhsBatch by decide),
    dif_pos (show (1 : Fin S512x1024.rank) ∈ dPV.rhsNonContracting by decide)]
  rfl

/-- The running numerator after the tile. -/
theorem pay14_apply (q : FVec Ideal S512x1024 .bf16) (k v : Vec Ideal S512x1024 .bf16) (m : Vec Ideal S512x1 .f32)
    (a : Vec Ideal S512x1024 .f32) (p : Fin 512) (e : Fin 1024) :
    k0_pay14 (F := Ideal) q k v m m a (ix2 p e)
      = nextNum (m (ix2 p (0 : Fin 1))) (a (ix2 p e)) (fun j => k0_pay9 (F := Ideal) q k (ix2 p j)) (fun j => v (ix2 j e)) := by
  unfold k0_pay14
  rw [shapeCast_self, addf_apply, mulf_apply, broadcastTo_a1_ab_apply]
  refine (congrArg (_ + ·) (Cert.GraphConv.matmul_zero_sum (φ₁ := .bf16) (φ₂ := .bf16) dPV none rfl rfl dPV_l0 dPV_l1 dPV_r0 dPV_r1 (truncf .bf16 (k0_pay12 (F := Ideal) q k m) bitsLt_bf16_f32) v (ix2 p e))).trans ?_
  unfold nextNum
  simp only [pay11_apply, pay10_apply]
  congr 1
  refine Finset.sum_congr rfl fun j _ => ?_
  show k0_pay12 (F := Ideal) q k m (ix2 p j) * v (ix2 j e) = _
  rw [pay12_apply, pay10_apply]

/-- The stored running maximum is the one computed. -/
theorem pay15_eq (q : FVec Ideal S512x1024 .bf16) (k : Vec Ideal S512x1024 .bf16) (m : Vec Ideal S512x1 .f32) :
    k0_pay15 (F := Ideal) q k m = k0_pay10 (F := Ideal) q k m := by
  unfold k0_pay15
  exact shapeCast_self _ _

/-- ONE TILE: what the three stores of a tile hold, at a query row p and an output feature e, is one step of the
    running form from what the three buffers held, with the tile's scores against row p and its values at feature e. -/
theorem tile_step (q : FVec Ideal S512x1024 .bf16) (k v : Vec Ideal S512x1024 .bf16) (m l : Vec Ideal S512x1 .f32)
    (a : Vec Ideal S512x1024 .f32) (p : Fin 512) (e : Fin 1024) :
    tileStep (m (ix2 p (0 : Fin 1)), l (ix2 p (0 : Fin 1)), a (ix2 p e))
        (fun j : Fin 512 => ∑ d : Fin 1024, q (ix2 p d) * k (ix2 j d)) (fun j : Fin 512 => v (ix2 j e))
      = (k0_pay15 (F := Ideal) q k m (ix2 p (0 : Fin 1)), k0_pay13 (F := Ideal) q k m m l (ix2 p (0 : Fin 1)),
          k0_pay14 (F := Ideal) q k v m m a (ix2 p e)) := by
  rw [pay15_eq, pay10_apply, pay13_apply, pay14_apply]
  simp only [pay9_apply]
  rfl

/-! ## The four tiles -/

/-- The running form after four tiles, from the four steps' states. -/
theorem online4_of_steps {B : ℕ} (S V : Fin 4 → Fin B → EReal) (s1 s2 s3 s4 : EReal × EReal × EReal)
    (h1 : tileStep ((⊥ : EReal), (0 : EReal), (0 : EReal)) (S 0) (V 0) = s1) (h2 : tileStep s1 (S 1) (V 1) = s2)
    (h3 : tileStep s2 (S 2) (V 2) = s3) (h4 : tileStep s3 (S 3) (V 3) = s4) :
    online4 S V = s4.2.2 * Ideal.div 1 s4.2.1 := by
  subst h1 h2 h3 h4
  rfl

/-- THE BODY'S ARITHMETIC AT AN ENTRY: row p, feature e of the output block is the running form over the four tiles,
    with the scores of query row p against each tile's key rows and each tile's values at feature e. The four tiles'
    operations are one text four times, so each tile is the same step; the first starts from the empty state the three
    buffers are filled with, and the last operation multiplies the numerator by one over the denominator. -/
theorem core_apply (q : FVec Ideal S512x1024 .bf16) (k0 k1 k2 k3 v0 v1 v2 v3 : Vec Ideal S512x1024 .bf16) (p : Fin 512) (e : Fin 1024) :
    core q k0 k1 k2 k3 v0 v1 v2 v3 (ix3 (0 : Fin 1) p e)
      = Cert.Attn.online4
          (fun (t : Fin 4) (j : Fin 512) => ∑ d : Fin 1024, q (ix2 p d) * (![k0, k1, k2, k3] t) (ix2 j d))
          (fun (t : Fin 4) (j : Fin 512) => (![v0, v1, v2, v3] t) (ix2 j e)) := by
  let m0 : Vec Ideal S512x1 .f32 := k0_pay6 (F := Ideal)
  let l0 : Vec Ideal S512x1 .f32 := k0_pay7 (F := Ideal)
  let a0 : Vec Ideal S512x1024 .f32 := k0_pay8 (F := Ideal)
  let m1 : Vec Ideal S512x1 .f32 := k0_pay15 (F := Ideal) q k0 m0
  let l1 : Vec Ideal S512x1 .f32 := k0_pay13 (F := Ideal) q k0 m0 m0 l0
  let a1 : Vec Ideal S512x1024 .f32 := k0_pay14 (F := Ideal) q k0 v0 m0 m0 a0
  let m2 : Vec Ideal S512x1 .f32 := k0_pay15 (F := Ideal) q k1 m1
  let l2 : Vec Ideal S512x1 .f32 := k0_pay13 (F := Ideal) q k1 m1 m1 l1
  let a2 : Vec Ideal S512x1024 .f32 := k0_pay14 (F := Ideal) q k1 v1 m1 m1 a1
  let m3 : Vec Ideal S512x1 .f32 := k0_pay15 (F := Ideal) q k2 m2
  let l3 : Vec Ideal S512x1 .f32 := k0_pay13 (F := Ideal) q k2 m2 m2 l2
  let a3 : Vec Ideal S512x1024 .f32 := k0_pay14 (F := Ideal) q k2 v2 m2 m2 a2
  have h1 : tileStep ((⊥ : EReal), (0 : EReal), (0 : EReal))
      (fun j : Fin 512 => ∑ d : Fin 1024, q (ix2 p d) * k0 (ix2 j d)) (fun j : Fin 512 => v0 (ix2 j e))
      = (m1 (ix2 p (0 : Fin 1)), l1 (ix2 p (0 : Fin 1)), a1 (ix2 p e)) := by
    have h := tile_step q k0 v0 m0 l0 a0 p e
    rw [show m0 (ix2 p (0 : Fin 1)) = (⊥ : EReal) from pay6_apply p, show l0 (ix2 p (0 : Fin 1)) = (0 : EReal) from pay7_apply p,
      show a0 (ix2 p e) = (0 : EReal) from pay8_apply p e] at h
    exact h
  have h2 := tile_step q k1 v1 m1 l1 a1 p e
  have h3 := tile_step q k2 v2 m2 l2 a2 p e
  have h4 := tile_step q k3 v3 m3 l3 a3 p e
  have hc : core q k0 k1 k2 k3 v0 v1 v2 v3
      = k0_pay1 (F := Ideal) (k0_pay14 (F := Ideal) q k3 v3 m3 m3 a3) (k0_pay13 (F := Ideal) q k3 m3 m3 l3) := rfl
  rw [hc, pay1_apply]
  exact (online4_of_steps
    (fun (t : Fin 4) (j : Fin 512) => ∑ d : Fin 1024, q (ix2 p d) * (![k0, k1, k2, k3] t) (ix2 j d))
    (fun (t : Fin 4) (j : Fin 512) => (![v0, v1, v2, v3] t) (ix2 j e)) _ _ _ _ h1 h2 h3 h4).symm

end Cert.KernelIdeal.Body

end
-- ==== Proof.KernelTiles.lean ====
/-
  The kernel's tile loads and its three projection payloads, read at one entry, on the extended reals.

  A load through a unit-stride rectangle reads the buffer at offset plus coordinate on every axis. The query tile
  of grid point (b, t) starts at row t * 512 of the sequence's rows, so its row p is the sequence's row
  t * 512 + p; a tile of 512 keys (or values) at row offset o has as its row j the buffer's row o + j, and the
  four tiles the body reads sit at offsets 0, 512, 1024 and 1536, that is, at keys (t, j) for t = 0, 1, 2, 3.

  The three projections are matrix products into a zero accumulator that contract the left operand's second axis
  with the right operand's first, so each entry is the plain sum over the 1024 features of row entry times
  weight entry. A reshape that only drops a leading axis of extent one reads entry (0, r, f) at (r, f); a
  reshape to the same shape and a change of number format are the identity. The query projection is then
  multiplied by the constant with bit pattern 0x3D000000.
-/
import proofs.«135320_j11003706212570_2_alg».proof.Proof.KernelBody
import proofs.«135320_j11003706212570_2_alg».proof.Proof.AttnSpec
import proofs.«135320_j11003706212570_2_alg».proof.Proof.LibMatmulSum
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## Loads through unit-stride rectangles -/

/-- A load through a unit-stride rectangle, read at x: the buffer at the index k whose every coordinate is the
    rectangle's offset plus x's coordinate. -/
theorem ld_unit_apply {S : Shape} {e : EltTy} {Val : EltTy → Type} (X : S.Idx → Val e)
    (off size : Fin S.rank → Nat) (inb : ∀ a, off a + size a ≤ S.size a)
    (x : (⟨S.rank, size⟩ : Shape).Idx) (k : S.Idx) (hk : ∀ a, (k a).val = off a + (x a).val) :
    View.ld X (Rect.unit off size inb) x = X k := by
  refine congrArg X (funext fun a => Fin.ext ?_)
  rw [hk a]
  show off a + 1 * (x a).val = off a + (x a).val
  rw [Nat.one_mul]

/-- Row p of the query tile of grid point i is row (i 1) * 512 + p of the sequence's rows. -/
theorem ld_query (i : grid0.Coords) (x0 : Vec Ideal S1x2048x1024 .bf16) (p : Fin 512) (f : Fin 1024) :
    View.ld x0 (queryRect i) (ix3 (0 : Fin 1) p f) = x0 (ix3 (0 : Fin 1) (Cert.Attn.key (i 1) p) f) := by
  unfold queryRect
  refine ld_unit_apply x0 _ _ _ _ _ fun a => ?_
  rw [k0_off1_eq i]
  match a with
  | ⟨0, _⟩ => rfl
  | ⟨1, _⟩ => show (i 1).val * 512 + p.val = 512 * (i 1).val + p.val; omega
  | ⟨2, _⟩ => show f.val = 0 + f.val; omega

/-- Row j of the tile at row offset o is row o + j of the buffer. -/
theorem ld_tile (K : Vec Ideal S2048x1024 .bf16) (o : Nat) (h : o + 512 ≤ 2048) (j : Fin 512) (d : Fin 1024) :
    View.ld K (tileRect o h) (ix2 j d) = K (ix2 (⟨o + j.val, by have := j.isLt; omega⟩ : Fin 2048) d) := by
  unfold tileRect
  refine ld_unit_apply K _ _ _ _ _ fun a => ?_
  match a with
  | ⟨0, _⟩ => rfl
  | ⟨1, _⟩ => show d.val = 0 + d.val; omega

theorem ld_tile0 (K : Vec Ideal S2048x1024 .bf16) (j : Fin 512) (d : Fin 1024) :
    View.ld K (tileRect 0 (by omega)) (ix2 j d) = K (ix2 (Cert.Attn.key 0 j) d) :=
  ld_tile K 0 (by omega) j d

theorem ld_tile1 (K : Vec Ideal S2048x1024 .bf16) (j : Fin 512) (d : Fin 1024) :
    View.ld K (tileRect 512 (by omega)) (ix2 j d) = K (ix2 (Cert.Attn.key 1 j) d) :=
  ld_tile K 512 (by omega) j d

theorem ld_tile2 (K : Vec Ideal S2048x1024 .bf16) (j : Fin 512) (d : Fin 1024) :
    View.ld K (tileRect 1024 (by omega)) (ix2 j d) = K (ix2 (Cert.Attn.key 2 j) d) :=
  ld_tile K 1024 (by omega) j d

theorem ld_tile3 (K : Vec Ideal S2048x1024 .bf16) (j : Fin 512) (d : Fin 1024) :
    View.ld K (tileRect 1536 (by omega)) (ix2 j d) = K (ix2 (Cert.Attn.key 3 j) d) :=
  ld_tile K 1536 (by omega) j d

/-! ## The dimension records of the two products: which coordinate comes from where -/

section Dims

/-- The 512-row product: the left index is (row of the entry, contraction index). -/
theorem q_lhs0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl
theorem q_lhs1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- … and the right index is (contraction index, column of the entry). -/
theorem q_rhs0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem q_rhs1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- The same four facts for the 2048-row product. -/
theorem kv_lhs0 (i : S2048x1024.Idx) (q : dot_S2048x1024_S1024x1024_S2048x1024_1_0_0_1_n_n.contr.Idx) :
    (dot_S2048x1024_S1024x1024_S2048x1024_1_0_0_1_n_n.lhsIdx i q 0).val = (i 0).val := by
  unfold DotDims.lhsIdx
  rw [dif_neg (show ¬(0 : Fin S2048x1024.rank) ∈ dot_S2048x1024_S1024x1024_S2048x1024_1_0_0_1_n_n.lhsBatch by decide),
    dif_pos (show (0 : Fin S2048x1024.rank) ∈ dot_S2048x1024_S1024x1024_S2048x1024_1_0_0_1_n_n.lhsNonContracting by decide)]
  rfl
theorem kv_lhs1 (i : S2048x1024.Idx) (q : dot_S2048x1024_S1024x1024_S2048x1024_1_0_0_1_n_n.contr.Idx) :
    (dot_S2048x1024_S1024x1024_S2048x1024_1_0_0_1_n_n.lhsIdx i q 1).val = (q ⟨0, by decide⟩).val :=
  dot_S2048x1024_S1024x1024_S2048x1024_1_0_0_1_n_n.lhsIdx_val_of_single rfl i q
theorem kv_rhs0 (i : S2048x1024.Idx) (q : dot_S2048x1024_S1024x1024_S2048x1024_1_0_0_1_n_n.contr.Idx) :
    (dot_S2048x1024_S1024x1024_S2048x1024_1_0_0_1_n_n.rhsIdx i q 0).val = (q ⟨0, by decide⟩).val :=
  dot_S2048x1024_S1024x1024_S2048x1024_1_0_0_1_n_n.rhsIdx_val_of_single rfl i q
theorem kv_rhs1 (i : S2048x1024.Idx) (q : dot_S2048x1024_S1024x1024_S2048x1024_1_0_0_1_n_n.contr.Idx) :
    (dot_S2048x1024_S1024x1024_S2048x1024_1_0_0_1_n_n.rhsIdx i q 1).val = (i 1).val := by
  unfold DotDims.rhsIdx
  rw [dif_neg (show ¬(1 : Fin S1024x1024.rank) ∈ dot_S2048x1024_S1024x1024_S2048x1024_1_0_0_1_n_n.rhsBatch by decide),
    dif_pos (show (1 : Fin S1024x1024.rank) ∈ dot_S2048x1024_S1024x1024_S2048x1024_1_0_0_1_n_n.rhsNonContracting by decide)]
  rfl

end Dims

/-! ## The payloads at an entry -/

/-- Dropping the leading axis of extent one: entry (r, f) of the reshaped array is entry (0, r, f). -/
theorem drop_unit_apply {n m : Nat} {α : Type} (x : (⟨3, ![1, n, m]⟩ : Shape).Idx → α)
    (h : (⟨3, ![1, n, m]⟩ : Shape).ShapeCasts ⟨2, ![n, m]⟩) (r : Fin n) (f : Fin m) :
    shapeCast (⟨2, ![n, m]⟩ : Shape) x h (ix2 r f) = x (ix3 (0 : Fin 1) r f) := by
  refine shapeCast_apply x h (ix2 r f) (ix3 (0 : Fin 1) r f) ?_
  rw [Shape.rowMajor_val_two, Shape.rowMajor_val_three]
  show (0 * n + r.val) * m + f.val = r.val * m + f.val
  rw [Nat.zero_mul, Nat.zero_add]

/-- The scaled query projection at row p and feature d. -/
theorem pay5_apply (xq : Vec Ideal S1x512x1024 .bf16) (x1 : Vec Ideal S1024x1024 .bf16) (p : Fin 512) (d : Fin 1024) :
    k0_pay5 xq x1 (ix2 p d)
      = (∑ f : Fin 1024, xq (ix3 (0 : Fin 1) p f) * x1 (ix2 f d)) * Ideal.ofBits .f32 0x3D000000#32 := by
  unfold k0_pay5
  show FloatOps.matmul dot_S512x1024_S1024x1024_S512x1024_1_0_0_1_n_n none
        (shapeCast S512x1024 xq shapeCasts_S1x512x1024_S512x1024)
        (shapeCast S1024x1024 x1 shapeCasts_S1024x1024_S1024x1024)
        (constant (F := Ideal) S512x1024 .f32 0x00000000#32) (ix2 p d) * Ideal.ofBits .f32 0x3D000000#32 = _
  rw [shapeCast_self, Cert.GraphConv.matmul_zero_sum dot_S512x1024_S1024x1024_S512x1024_1_0_0_1_n_n none rfl rfl
    q_lhs0 q_lhs1 q_rhs0 q_rhs1]
  refine congrArg (· * Ideal.ofBits .f32 0x3D000000#32) (Finset.sum_congr rfl fun f _ => ?_)
  exact congrArg (· * x1 (ix2 f d)) (drop_unit_apply xq _ p f)

/-- The key projection at row r and feature d. -/
theorem pay3_apply (x0 : Vec Ideal S1x2048x1024 .bf16) (x2 : Vec Ideal S1024x1024 .bf16) (r : Fin 2048) (d : Fin 1024) :
    k0_pay3 x0 x2 (ix2 r d) = ∑ f : Fin 1024, x0 (ix3 (0 : Fin 1) r f) * x2 (ix2 f d) := by
  unfold k0_pay3 k0_pay2
  show shapeCast S2048x1024 (fun j => FloatOps.matmul dot_S2048x1024_S1024x1024_S2048x1024_1_0_0_1_n_n none
        (shapeCast S2048x1024 x0 shapeCasts_S1x2048x1024_S2048x1024)
        (shapeCast S1024x1024 x2 shapeCasts_S1024x1024_S1024x1024)
        (constant (F := Ideal) S2048x1024 .f32 0x00000000#32) j) shapeCasts_S2048x1024_S2048x1024 (ix2 r d) = _
  rw [shapeCast_self, shapeCast_self, Cert.GraphConv.matmul_zero_sum dot_S2048x1024_S1024x1024_S2048x1024_1_0_0_1_n_n none rfl rfl
    kv_lhs0 kv_lhs1 kv_rhs0 kv_rhs1]
  exact Finset.sum_congr rfl fun f _ => congrArg (· * x2 (ix2 f d)) (drop_unit_apply x0 _ r f)

/-- The value projection at row r and feature d. -/
theorem pay4_apply (x0 : Vec Ideal S1x2048x1024 .bf16) (x3 : Vec Ideal S1024x1024 .bf16) (r : Fin 2048) (d : Fin 1024) :
    k0_pay4 x0 x3 (ix2 r d) = ∑ f : Fin 1024, x0 (ix3 (0 : Fin 1) r f) * x3 (ix2 f d) := by
  unfold k0_pay4 k0_pay2
  show shapeCast S2048x1024 (fun j => FloatOps.matmul dot_S2048x1024_S1024x1024_S2048x1024_1_0_0_1_n_n none
        (shapeCast S2048x1024 x0 shapeCasts_S1x2048x1024_S2048x1024)
        (shapeCast S1024x1024 x3 shapeCasts_S1024x1024_S1024x1024)
        (constant (F := Ideal) S2048x1024 .f32 0x00000000#32) j) shapeCasts_S2048x1024_S2048x1024 (ix2 r d) = _
  rw [shapeCast_self, shapeCast_self, Cert.GraphConv.matmul_zero_sum dot_S2048x1024_S1024x1024_S2048x1024_1_0_0_1_n_n none rfl rfl
    kv_lhs0 kv_lhs1 kv_rhs0 kv_rhs1]
  exact Finset.sum_congr rfl fun f _ => congrArg (· * x3 (ix2 f d)) (drop_unit_apply x0 _ r f)

end Cert.KernelIdeal.Body

end
-- ==== Proof.AttnBridge.lean ====
/-
  Scaling the query first, and accumulating over tiles of keys, still gives attention.

  The specification's score of a query row against a key row is the inner product of their projections times 1/32. The
  same number is reached by multiplying every feature of the query's projection by 1/32 first and taking the inner
  product afterwards: for real entries a constant factor on one side of every product comes out of the sum. When every
  entry of the sequence array and of the weight matrices is a real number, so is every projection (a finite sum of
  products of reals) and so is every score. The running form over four tiles of 512 keys, fed with such scores and with
  the value rows' projections, is then the sum over all 2048 keys of the softmax weights (shifted by the row's largest
  score) times the values, which is the specification's attention entry.
-/
import proofs.«135320_j11003706212570_2_alg».proof.Proof.AttnSpec
import proofs.«135320_j11003706212570_2_alg».proof.Proof.OnlineSoftmax

noncomputable section

namespace Cert.Attn

open Idealize.ShloMosaic Idealize.ShloMosaic.ValueIdx
open Cert.Lib.HostSoftmax (softWeight rowShift)

/-- A projection of real entries by a real matrix is a real. -/
theorem proj_real (X : SX.Idx → EReal) (W : SW.Idx → EReal) (hX : ∀ i, ∃ r : ℝ, X i = (r : EReal)) (hW : ∀ i, ∃ r : ℝ, W i = (r : EReal))
    (b : Fin 4) (n : Fin 2048) (e : Fin 1024) : ∃ r : ℝ, proj X W b n e = (r : EReal) := by
  choose x hx using hX
  choose w hw using hW
  refine ⟨∑ d : Fin 1024, x (ix3 b n d) * w (ix2 d e), ?_⟩
  unfold proj
  simp only [hx, hw]
  exact sum_mul_real (fun d => x (ix3 b n d)) (fun d => w (ix2 d e))

/-- A score of real entries is a real. -/
theorem score_real (X : SX.Idx → EReal) (Wq Wk : SW.Idx → EReal) (hX : ∀ i, ∃ r : ℝ, X i = (r : EReal))
    (hq : ∀ i, ∃ r : ℝ, Wq i = (r : EReal)) (hk : ∀ i, ∃ r : ℝ, Wk i = (r : EReal)) (b : Fin 4) (n m : Fin 2048) :
    ∃ r : ℝ, score X Wq Wk b n m = (r : EReal) := by
  choose q hq' using fun d => proj_real X Wq hX hq b n d
  choose k hk' using fun d => proj_real X Wk hX hk b m d
  refine ⟨(∑ d, q d * k d) * (1 / 32), ?_⟩
  unfold score scale
  simp only [hq', hk']
  rw [sum_mul_real, ← EReal.coe_mul]

/-- The query's projection times the word of 1/32 first, then the inner product with the key's projection: the score. -/
theorem scaled_first (X : SX.Idx → EReal) (Wq Wk : SW.Idx → EReal) (hX : ∀ i, ∃ r : ℝ, X i = (r : EReal))
    (hq : ∀ i, ∃ r : ℝ, Wq i = (r : EReal)) (hk : ∀ i, ∃ r : ℝ, Wk i = (r : EReal)) (b : Fin 4) (n m : Fin 2048) :
    (∑ d : Fin 1024, (proj X Wq b n d * Ideal.ofBits .f32 0x3D000000#32) * proj X Wk b m d) = score X Wq Wk b n m := by
  choose q hq' using fun d => proj_real X Wq hX hq b n d
  choose k hk' using fun d => proj_real X Wk hX hk b m d
  rw [ofBits_scale]
  unfold score scale
  simp only [hq', hk']
  exact sum_mul_scale q k (1 / 32)

/-- The running form over the four tiles, with the scores spelt scale-first and the value rows' projections, is the
    specification's attention entry. -/
theorem online_is_attn (X : SX.Idx → EReal) (Wq Wk Wv : SW.Idx → EReal)
    (hX : ∀ i, ∃ r : ℝ, X i = (r : EReal)) (hq : ∀ i, ∃ r : ℝ, Wq i = (r : EReal))
    (hk : ∀ i, ∃ r : ℝ, Wk i = (r : EReal)) (hv : ∀ i, ∃ r : ℝ, Wv i = (r : EReal))
    (b : Fin 4) (n : Fin 2048) (e : Fin 1024) :
    online4 (fun (t : Fin 4) (j : Fin 512) => ∑ d : Fin 1024, (proj X Wq b n d * Ideal.ofBits .f32 0x3D000000#32) * proj X Wk b (key t j) d)
            (fun (t : Fin 4) (j : Fin 512) => proj X Wv b (key t j) e)
      = attn X Wq Wk Wv b n e := by
  choose sc hsc using fun m => score_real X Wq Wk hX hq hk b n m
  choose vv hvv using fun m => proj_real X Wv hX hv b m e
  have hS : (fun (t : Fin 4) (j : Fin 512) => ∑ d : Fin 1024, (proj X Wq b n d * Ideal.ofBits .f32 0x3D000000#32) * proj X Wk b (key t j) d)
      = fun t j => ((sc (key t j) : ℝ) : EReal) :=
    funext fun t => funext fun j => (scaled_first X Wq Wk hX hq hk b n (key t j)).trans (hsc (key t j))
  have hV : (fun (t : Fin 4) (j : Fin 512) => proj X Wv b (key t j) e) = fun t j => ((vv (key t j) : ℝ) : EReal) :=
    funext fun t => funext fun j => hvv (key t j)
  refine (congrArg₂ (online4 (B := 512)) hS hV).trans ((online4_eq sc vv).trans ?_)
  unfold attn
  simp only [hsc, hvv]

end Cert.Attn

end
-- ==== Proof.KernelValue.lean ====
/-
  Every output block of the fused attention kernel agrees, entry by entry, with self-attention of the argument arrays.

  One point's block is the body's function of the point's rows, the query weights, and the sequence's keys and values.
  Read at query row p and feature e, that function is the running softmax over four tiles of keys whose tile scores are
  (query row's projection times 1/32) dotted with a key row's projection, and whose values are the value projections;
  for real inputs that is the softmax-weighted sum over all 2048 keys. A block's rows are rows of the sequence the point
  works on, the weight blocks are the weight arrays, and the keys and values in the persistent buffers are the
  projections of that same sequence, so the entry is attention at (sequence, 512 * tile + p, e).
-/
import proofs.«135320_j11003706212570_2_alg».proof.Proof.KernelPoints
import proofs.«135320_j11003706212570_2_alg».proof.Proof.KernelEntry
import proofs.«135320_j11003706212570_2_alg».proof.Proof.KernelTiles
import proofs.«135320_j11003706212570_2_alg».proof.Proof.AttnBridge

set_option maxRecDepth 16384

noncomputable section

namespace Cert.KernelIdeal.Result

open Cert.KernelIdeal Cert.KernelIdeal.Gen Cert.KernelIdeal.Body Cert.KernelIdeal.Points
open Idealize.ShloMosaic Idealize.ShloMosaic.TcCoe Idealize.SL.Sem Idealize.ShloMosaic.ValueIdx
open Cert.Attn (SX SW proj key attn G online4)

/-- The body's function read at an entry, over plain arrays: if the rows `x0` are the rows of sequence `b` of `X`, the
    weights `x1` are `Wq`, and the keys and values are the projections of sequence `b`, then the block of query tile
    `qi` holds, at row `p` and feature `e`, attention at row `512 * qi + p`. -/
theorem entry_of_blocks (i : grid0.Coords) (x0 : Vec Ideal S1x2048x1024 .bf16) (x1 : Vec Ideal S1024x1024 .bf16)
    (K V : Vec Ideal S2048x1024 .bf16) (X : SX.Idx → EReal) (Wq Wk Wv : SW.Idx → EReal) (b qi : Fin 4)
    (hi : (i 1 : Fin 4) = qi)
    (h0 : ∀ (r : Fin 2048) (f : Fin 1024), x0 (ix3 (0 : Fin 1) r f) = X (ix3 b r f))
    (h1 : ∀ (f d : Fin 1024), x1 (ix2 f d) = Wq (ix2 f d))
    (hK : ∀ (r : Fin 2048) (d : Fin 1024), K (ix2 r d) = proj X Wk b r d)
    (hV : ∀ (r : Fin 2048) (d : Fin 1024), V (ix2 r d) = proj X Wv b r d)
    (hX : ∀ j, ∃ r : ℝ, X j = (r : EReal)) (hq : ∀ j, ∃ r : ℝ, Wq j = (r : EReal))
    (hk : ∀ j, ∃ r : ℝ, Wk j = (r : EReal)) (hv : ∀ j, ∃ r : ℝ, Wv j = (r : EReal))
    (p : Fin 512) (e : Fin 1024) :
    bodyVal i x0 x1 K V (ix3 (0 : Fin 1) p e) = attn X Wq Wk Wv b (key qi p) e := by
  unfold bodyVal
  refine (core_apply _ _ _ _ _ _ _ _ _ p e).trans ?_
  refine (congrArg₂ online4 (funext fun tt => funext fun j => ?_) (funext fun tt => funext fun j => ?_)).trans
    (Cert.Attn.online_is_attn X Wq Wk Wv hX hq hk hv b (key qi p) e)
  · refine Finset.sum_congr rfl fun d _ => ?_
    have hq' : k0_pay5 (View.ld x0 (queryRect i)) x1 (ix2 p d) = proj X Wq b (key qi p) d * Ideal.ofBits .f32 0x3D000000#32 := by
      refine (pay5_apply (View.ld x0 (queryRect i)) x1 p d).trans ?_
      refine congrArg (· * Ideal.ofBits .f32 0x3D000000#32) ?_
      unfold proj
      refine Finset.sum_congr rfl fun f _ => ?_
      exact congrArg₂ (· * ·)
        ((ld_query i x0 p f).trans ((congrArg (fun q => x0 (ix3 (0 : Fin 1) (key q p) f)) hi).trans (h0 _ _))) (h1 f d)
    have hk' : (![View.ld K (tileRect 0 (by omega)), View.ld K (tileRect 512 (by omega)),
        View.ld K (tileRect 1024 (by omega)), View.ld K (tileRect 1536 (by omega))] tt) (ix2 j d) = proj X Wk b (key tt j) d := by
      match tt with
      | ⟨0, _⟩ => exact (ld_tile0 K j d).trans (hK _ _)
      | ⟨1, _⟩ => exact (ld_tile1 K j d).trans (hK _ _)
      | ⟨2, _⟩ => exact (ld_tile2 K j d).trans (hK _ _)
      | ⟨3, _⟩ => exact (ld_tile3 K j d).trans (hK _ _)
    exact congrArg₂ (· * ·) hq' hk'
  · match tt with
    | ⟨0, _⟩ => exact (ld_tile0 V j e).trans (hV _ _)
    | ⟨1, _⟩ => exact (ld_tile1 V j e).trans (hV _ _)
    | ⟨2, _⟩ => exact (ld_tile2 V j e).trans (hV _ _)
    | ⟨3, _⟩ => exact (ld_tile3 V j e).trans (hV _ _)

section AtPoints

variable (m : (ℓ : Loc nD τ sig) → Buf (Elt Ideal) ℓ)

/-- The query tile a point works on is its second grid coordinate. -/
theorem tile_coord (t : Fin cfg0.N) : ((grid0.coords t) 1 : Fin 4) = tileOf t := by
  obtain ⟨-, -, -, -, -, -, -, -, -, -, -, -, e⟩ := idx_facts t
  exact Fin.ext e

/-- The keys in the persistent buffer are the key projections of the point's sequence. -/
theorem keys_entry (c : Dev nD) (t : Fin cfg0.N) (r : Fin 2048) (d : Fin 1024) :
    (keysAt m c (firstPt t.val t.isLt) : S2048x1024.Idx → EReal) (ix2 r d)
      = proj (m ((c : Thread nD τ).loc main_arg0)) (m ((c : Thread nD τ).loc main_arg2)) (seqOf t) r d := by
  unfold keysAt
  refine (pay3_apply (iblk m c 0 (firstPt t.val t.isLt)) (iblk m c 2 (firstPt t.val t.isLt)) r d).trans ?_
  unfold proj
  refine Finset.sum_congr rfl fun f _ => ?_
  refine congrArg₂ (· * ·) ((iblk_rows m c (firstPt t.val t.isLt) r f).trans ?_) (iblk_wk m c (firstPt t.val t.isLt) f d)
  rw [seqOf_firstPt]

/-- The values in the persistent buffer are the value projections of the point's sequence. -/
theorem values_entry (c : Dev nD) (t : Fin cfg0.N) (r : Fin 2048) (d : Fin 1024) :
    (valsAt m c (firstPt t.val t.isLt) : S2048x1024.Idx → EReal) (ix2 r d)
      = proj (m ((c : Thread nD τ).loc main_arg0)) (m ((c : Thread nD τ).loc main_arg3)) (seqOf t) r d := by
  unfold valsAt
  refine (pay4_apply (iblk m c 0 (firstPt t.val t.isLt)) (iblk m c 3 (firstPt t.val t.isLt)) r d).trans ?_
  unfold proj
  refine Finset.sum_congr rfl fun f _ => ?_
  refine congrArg₂ (· * ·) ((iblk_rows m c (firstPt t.val t.isLt) r f).trans ?_) (iblk_wv m c (firstPt t.val t.isLt) f d)
  rw [seqOf_firstPt]

/-- Every block agrees with attention of the argument arrays, when these hold real numbers only. -/
theorem block_entry (c : Dev nD)
    (hX : ∀ j, ∃ r : ℝ, (m ((c : Thread nD τ).loc main_arg0)) j = (r : EReal)) (hq : ∀ j, ∃ r : ℝ, (m ((c : Thread nD τ).loc main_arg1)) j = (r : EReal))
    (hk : ∀ j, ∃ r : ℝ, (m ((c : Thread nD τ).loc main_arg2)) j = (r : EReal)) (hv : ∀ j, ∃ r : ℝ, (m ((c : Thread nD τ).loc main_arg3)) j = (r : EReal))
    (t : Fin cfg0.N) (p : Fin 512) (e : Fin 1024) :
    ((outsAt0 m c t.val t.isLt).1 : S1x512x1024.Idx → EReal) (ix3 (0 : Fin 1) p e)
      = G (m ((c : Thread nD τ).loc main_arg0)) (m ((c : Thread nD τ).loc main_arg1)) (m ((c : Thread nD τ).loc main_arg2)) (m ((c : Thread nD τ).loc main_arg3))
          (ix3 (seqOf t) (key (tileOf t) p) e) := by
  rw [out_eq m c t]
  exact entry_of_blocks (grid0.coords t) (iblk m c 0 t) (iblk m c 1 t) (keysAt m c (firstPt t.val t.isLt))
    (valsAt m c (firstPt t.val t.isLt)) (m ((c : Thread nD τ).loc main_arg0)) (m ((c : Thread nD τ).loc main_arg1)) (m ((c : Thread nD τ).loc main_arg2)) (m ((c : Thread nD τ).loc main_arg3))
    (seqOf t) (tileOf t) (tile_coord t) (iblk_rows m c t) (iblk_wq m c t) (keys_entry m c t) (values_entry m c t)
    hX hq hk hv p e

end AtPoints

end Cert.KernelIdeal.Result

end
-- ==== Proof.RefAttn.lean ====
/-
  The reference program computes attention.

  Read entry by entry, the reference's result at (b, n, e) is a sum over the key rows m of a weight times the value row's
  feature e. The value row is row m of sequence b times the third weight matrix. The weight is the host's softmax, over the
  last axis, of the array of scores; a score is the inner product of a query row and a key row (rows of the sequence times the
  first and the second weight matrix) times a scalar the program computes as one over the square root of 1024, which is 1/32
  because 32 * 32 = 1024. The softmax's initial value for its row maximum is the word of −∞. So the result is the
  specification's G: both sides are the same expression on the extended reals, and nothing is asked of the entries.
-/
import proofs.«135320_j11003706212570_2_alg».proof.Proof.Gen.ReferenceIdeal.Read
import proofs.«135320_j11003706212570_2_alg».proof.Proof.AttnSpec
import proofs.«135320_j11003706212570_2_alg».proof.Proof.LibHostSoftmax
import Idealize.ShloMosaic.Lib.ValueIdx
import Idealize.ShloMosaic.Lib.Pipeline.Value
import Idealize.ShloMosaic.Lib.IdealHost
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx
open Cert.Lib.HostSoftmax (softWeight rowShift hostExp hostSoftmax_apply)

/-! ## The program's three scalar words -/

/-- The word 0x44800000 is 2^10 = 1024. -/
theorem ofBits_1024 : Ideal.ofBits .f32 0x44800000#32 = ((1024 : ℝ) : EReal) := by
  simp [Ideal.ofBits, Ideal.ieee, -EReal.coe_mul]; norm_num

/-- The word 0xFF800000 is −∞. -/
theorem ofBits_ninf : Ideal.ofBits .f32 0xFF800000#32 = ⊥ := by
  simp [Ideal.ofBits, Ideal.ieee]

/-- The square root of 1024 is 32. -/
theorem sqrt_1024 : Real.sqrt 1024 = 32 := by
  rw [show (1024 : ℝ) = 32 ^ 2 by norm_num, Real.sqrt_sq (by norm_num)]

/-- The scalar the program multiplies the scores by, one over the square root of 1024, is 1/32. -/
theorem host_scale :
    Ideal.div (Ideal.ofBits .f32 0x3F800000#32) (Ideal.sqrt (Ideal.ofBits .f32 0x44800000#32)) = Cert.Attn.scale := by
  rw [Ideal.ofBits_one_f32, ofBits_1024, Ideal.sqrt_coe, if_neg (by norm_num), sqrt_1024,
    Ideal.div_coe (by norm_num), one_mul]
  rfl

/-! ## The three projections -/

/-- A row of the sequence times a weight matrix, read at (b, n, e): the specification's projection. The program's three
    first products are this one operation at three weight matrices. -/
theorem proj_apply (x0 : (⟨S4x2048x1024, .f32⟩ : BufTy).Contents (Elt Ideal)) (w : (⟨S1024x1024, .f32⟩ : BufTy).Contents (Elt Ideal))
    (b : Fin 4) (n : Fin 2048) (e : Fin 1024) :
    val_main_v0 (F := Ideal) x0 w (ix3 b n e) = Cert.Attn.proj x0 w b n e := by
  rw [val_main_v0_apply]
  unfold Cert.Attn.proj
  refine Finset.sum_congr rfl fun d _ => ?_
  have hl : lidx_main_v0 (ix3 b n e) d = ix3 b n d :=
    funext fun a => Fin.ext (by match a with | ⟨0, _⟩ => rfl | ⟨1, _⟩ => rfl | ⟨2, _⟩ => rfl)
  have hr : ridx_main_v0 (ix3 b n e) d = ix2 d e :=
    funext fun a => Fin.ext (by match a with | ⟨0, _⟩ => rfl | ⟨1, _⟩ => rfl)
  rw [hl, hr]

/-! ## The scores -/

/-- The scaled product of the queries and the keys, read at (b, n, m): the specification's score. -/
theorem score_apply (x0 : (⟨S4x2048x1024, .f32⟩ : BufTy).Contents (Elt Ideal)) (x1 x2 : (⟨S1024x1024, .f32⟩ : BufTy).Contents (Elt Ideal))
    (b : Fin 4) (n m : Fin 2048) :
    val_main_v7 (F := Ideal) x0 x1 x2 (ix3 b n m) = Cert.Attn.score x0 x1 x2 b n m := by
  show val_main_v5 (F := Ideal) x0 x1 x2 (ix3 b n m) * val_main_v6 (F := Ideal) (ix3 b n m) = _
  rw [val_main_v6_apply, val_main_v5_apply]
  show _ * Ideal.div (Ideal.ofBits .f32 0x3F800000#32) (Ideal.sqrt (Ideal.ofBits .f32 0x44800000#32)) = _
  rw [host_scale]
  unfold Cert.Attn.score
  refine congrArg (· * Cert.Attn.scale) (Finset.sum_congr rfl fun k _ => ?_)
  have hl : lidx_main_v5 (ix3 b n m) k = ix3 b n k :=
    funext fun a => Fin.ext (by match a with | ⟨0, _⟩ => rfl | ⟨1, _⟩ => rfl | ⟨2, _⟩ => rfl)
  have hr : ridx_main_v5 (ix3 b n m) k = ix3 b m k :=
    funext fun a => Fin.ext (by match a with | ⟨0, _⟩ => rfl | ⟨1, _⟩ => rfl | ⟨2, _⟩ => rfl)
  rw [hl, hr, proj_apply]
  exact congrArg (_ * ·) (proj_apply x0 x2 b m k)

/-! ## The weights -/

/-- The host's softmax of the scores, read at (b, n, m): the softmax weight of key m in query row n's scores, shifted by
    the row's maximum from −∞. -/
theorem weight_apply (x0 : (⟨S4x2048x1024, .f32⟩ : BufTy).Contents (Elt Ideal)) (x1 x2 : (⟨S1024x1024, .f32⟩ : BufTy).Contents (Elt Ideal))
    (b : Fin 4) (n m : Fin 2048) :
    val_main_v18 (F := Ideal) x0 x1 x2 (ix3 b n m)
      = softWeight (fun j => Cert.Attn.score x0 x1 x2 b n j) (rowShift (fun j => Cert.Attn.score x0 x1 x2 b n j) ⊥) m := by
  have h := hostSoftmax_apply (A := 4) (B := 2048) (C := 2048) (val_main_v7 (F := Ideal) x0 x1 x2)
    Facts₀.reducesTo_S4x2048x2048_S4x2048_d2 (by decide) Facts₀.h_S_ Facts₀.bcast_S_S4x2048 Facts₀.bcast_S4x2048_S4x2048x1_0_1
    Facts₀.bcast_S4x2048x1_S4x2048x2048_0_1_2 0xFF800000#32 b n m
  rw [ofBits_ninf] at h
  simp only [score_apply] at h
  exact h

/-! ## The result -/

/-- The reference's result array is the specification's. -/
theorem ref_eq (x0 : (⟨S4x2048x1024, .f32⟩ : BufTy).Contents (Elt Ideal)) (x1 x2 x3 : (⟨S1024x1024, .f32⟩ : BufTy).Contents (Elt Ideal)) :
    Cert.ReferenceIdeal.Read.val_main_v19 x0 x1 x2 x3 = Cert.Attn.G x0 x1 x2 x3 := by
  funext i
  obtain ⟨b, n, e, rfl⟩ : ∃ (b : Fin 4) (n : Fin 2048) (e : Fin 1024), i = ix3 b n e := ⟨i 0, i 1, i 2, eq_ix3 i⟩
  rw [val_main_v19_apply]
  show _ = Cert.Attn.attn x0 x1 x2 x3 b n e
  unfold Cert.Attn.attn
  refine Finset.sum_congr rfl fun m _ => ?_
  have hl : lidx_main_v19 (ix3 b n e) m = ix3 b n m :=
    funext fun a => Fin.ext (by match a with | ⟨0, _⟩ => rfl | ⟨1, _⟩ => rfl | ⟨2, _⟩ => rfl)
  have hr : ridx_main_v19 (ix3 b n e) m = ix3 b m e :=
    funext fun a => Fin.ext (by match a with | ⟨0, _⟩ => rfl | ⟨1, _⟩ => rfl | ⟨2, _⟩ => rfl)
  rw [hl, hr, weight_apply]
  exact congrArg (_ * ·) (proj_apply x0 x3 b m e)

end Cert.ReferenceIdeal.RefValue

end
-- ==== Proof.FiniteInputs.lean ====
/-
  Under the precondition every input entry is a real number.

  The precondition says, for each of the four input arrays, that every entry's absolute value is strictly
  below plus infinity, and takes the conjunction of the four statements. On the extended reals the absolute
  value of x is max x (-x). It is plus infinity at both infinities, so an entry whose absolute value is
  strictly below plus infinity is neither of them: it is the image of a real number.
-/
import proofs.«135320_j11003706212570_2_alg».proof.Pre_finite_inputs
import proofs.«135320_j11003706212570_2_alg».proof.Proof.Gen.Pre_finite_inputs
import Idealize.ShloMosaic.Lib.ReduceAll
import Idealize.ShloMosaic.Lib.ValueIdx
import Idealize.ShloMosaic.PureOps.Ideal

noncomputable section

namespace Cert.Attn.Finite

open Idealize.ShloMosaic

/-- The bit pattern 0x7F800000 (sign 0, exponent all ones, fraction 0) denotes plus infinity. -/
theorem inf_pattern : Ideal.ofBits .f32 0x7F800000#32 = (⊤ : EReal) := by
  simp [Ideal.ofBits, Ideal.ieee]

/-- An extended real whose absolute value max x (-x) compares strictly below plus infinity is a real:
    at plus infinity the maximum is plus infinity through x, at minus infinity through -x. -/
theorem real_of_abs_lt_inf (x : EReal)
    (h : Ideal.cmp .olt (max x (-x)) (Ideal.ofBits .f32 0x7F800000#32) = 1#1) : ∃ r : ℝ, x = (r : EReal) := by
  rw [inf_pattern] at h
  have hlt : max x (-x) < ⊤ := by
    by_contra hn
    simp [Ideal.cmp, hn] at h
  induction x using EReal.rec with
  | bot => simp at hlt
  | coe r => exact ⟨r, rfl⟩
  | top => simp at hlt

/-- The scalar shape has one index. -/
instance : Subsingleton Cert.Pre_finite_inputs.S_.Idx := ⟨fun a b => funext fun d => d.elim0⟩

/-- One conjunct of the precondition: if the conjunction over all entries of "|x i| < +inf" is 1,
    every entry of x is a real. Any shape, any list of reduced axes that leaves the scalar shape. -/
theorem entries_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu j = 1#1) :
    ∀ i, ∃ r : ℝ, x i = (r : EReal) := by
  intro i
  have hi := Host.reduce_andi_all _ _ hr hu j e i
  exact real_of_abs_lt_inf (x i) hi

/-- Under the precondition all four inputs have only real entries. -/
theorem all_real [Cert.Pre_finite_inputs.Facts]
    (x0 : FVec Ideal Cert.Pre_finite_inputs.S4x2048x1024 .f32)
    (x1 x2 x3 : FVec Ideal Cert.Pre_finite_inputs.S1024x1024 .f32)
    (h : Cert.Pre_finite_inputs.fn (F := Ideal) x0 x1 x2 x3 = fun _ => 1#1) :
    (∀ i, ∃ r : ℝ, x0 i = (r : EReal)) ∧ (∀ i, ∃ r : ℝ, x1 i = (r : EReal)) ∧
      (∀ i, ∃ r : ℝ, x2 i = (r : EReal)) ∧ (∀ i, ∃ r : ℝ, x3 i = (r : EReal)) := by
  have h0 := congrFun h ValueIdx.ix0
  dsimp only [Cert.Pre_finite_inputs.fn, Cert.Pre_finite_inputs.fn_part1, andi] at h0
  obtain ⟨h012, e3⟩ := IntOp.andi_eq_one.1 h0
  obtain ⟨h01, e2⟩ := IntOp.andi_eq_one.1 h012
  obtain ⟨e0, e1⟩ := IntOp.andi_eq_one.1 h01
  exact ⟨entries_real x0 _ _ _ _ e0, entries_real x1 _ _ _ _ e1, entries_real x2 _ _ _ _ e2,
    entries_real x3 _ _ _ _ e3⟩

end Cert.Attn.Finite

end
-- ==== Proof.lean ====
/-
  A fused attention kernel against self-attention written with jnp.

  The reference computes, for four sequences X of 2048 rows of 1024 features and weights W_Q, W_K, W_V: the projections
  Q = X W_Q, K = X W_K, V = X W_V, the scores Q Kᵀ / sqrt(1024), a softmax over each row of scores (shifted by the row's
  maximum), and the weighted sums of the rows of V. The kernel works on one sequence and one tile of 512 query rows per
  grid point: the first point of a sequence projects all its keys and values into two buffers that persist over the
  sequence's four points; every point projects its query rows and multiplies them by 1/32 (32 * 32 = 1024, so this is
  the reference's scale, moved inside the inner product), then visits the keys in four tiles of 512, keeping a running
  maximum, a running sum of exponentials and a running weighted sum, rescaling both sums whenever the maximum moves, and
  finally divides.

  At the ideal values (floats are extended reals, a change of float format is the identity) both results are the same
  array `Cert.Attn.G` of the arguments:
  * the reference is `G` read operation by operation, with no hypothesis on the entries (Proof/RefAttn.lean);
  * for the kernel, every point's block is one function of its blocks and of its sequence's keys and values, whichever
    control case it runs (Proof/KernelBody.lean, Proof/KernelPoints.lean); read at an entry it is the running softmax over
    tiles (Proof/KernelEntry.lean, Proof/KernelTiles.lean), which for REAL entries is the softmax over all keys, because
    e^(M - M') e^(x - M) = e^(x - M') and a quotient by a positive real distributes over a finite sum of reals
    (Proof/OnlineSoftmax.lean, Proof/AttnBridge.lean, Proof/KernelValue.lean); the sixteen blocks cover the result array.
  The precondition — every input entry finite — is what makes the entries real (Proof/FiniteInputs.lean); the law fails
  at the infinities. The two frame claims of the kernel are the generated frame run; the reference's is its generated run
  with the result dropped; no rewrite was applied by the idealization, so nothing is to be preserved.
-/
import proofs.«135320_j11003706212570_2_alg».proof.Defs
import proofs.«135320_j11003706212570_2_alg».proof.Proof.Gen.Kernel
import proofs.«135320_j11003706212570_2_alg».proof.Proof.Gen.Kernel.Skeleton
import proofs.«135320_j11003706212570_2_alg».proof.Proof.Gen.Kernel.Launch
import proofs.«135320_j11003706212570_2_alg».proof.Proof.Gen.Kernel.Points
import proofs.«135320_j11003706212570_2_alg».proof.Proof.Gen.Kernel.Frame
import proofs.«135320_j11003706212570_2_alg».proof.Proof.Gen.KernelIdeal
import proofs.«135320_j11003706212570_2_alg».proof.Proof.Gen.KernelIdeal.Skeleton
import proofs.«135320_j11003706212570_2_alg».proof.Proof.Gen.KernelIdeal.Launch
import proofs.«135320_j11003706212570_2_alg».proof.Proof.Gen.KernelIdeal.Points
import proofs.«135320_j11003706212570_2_alg».proof.Proof.Gen.KernelIdeal.Frame
import proofs.«135320_j11003706212570_2_alg».proof.Proof.Gen.ReferenceIdeal
import proofs.«135320_j11003706212570_2_alg».proof.Proof.Gen.Pre_finite_inputs
import proofs.«135320_j11003706212570_2_alg».proof.Proof.Gen.KernelIdeal.Value
import proofs.«135320_j11003706212570_2_alg».proof.Proof.Gen.ReferenceIdeal.Run
import proofs.«135320_j11003706212570_2_alg».proof.Proof.Gen.ReferenceIdeal.Read
import proofs.«135320_j11003706212570_2_alg».proof.Proof.KernelValue
import proofs.«135320_j11003706212570_2_alg».proof.Proof.RefAttn
import proofs.«135320_j11003706212570_2_alg».proof.Proof.FiniteInputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Under the precondition the kernel's result array is attention of its arguments. -/
theorem kernel_run (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v4)
            = Cert.Attn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) := by
  refine (θ_run (Cert.KernelIdeal.defs (F := Ideal)) _ _).mono (fun r h c => ⟨(h c).1.trans ?_, (h c).2⟩)
    (Cert.KernelIdeal.Value.run_blocks m ρ)
  obtain ⟨hX, hq, hk, hv⟩ := Cert.Attn.Finite.all_real _ _ _ _ (hpre c)
  exact Cert.KernelIdeal.Points.final_of m c _ (Cert.KernelIdeal.Result.block_entry m c hX hq hk hv)

/-- Both programs end with attention of the kernel's arguments. -/
theorem algebraic : Cert.algebraic_KernelIdeal_ReferenceIdeal := by
  intro m ρ m' ρ' hpre hagree
  refine ⟨_, kernel_run m ρ hpre, ?_⟩
  refine (θ_run (Cert.ReferenceIdeal.defs (F := Ideal)) _ _).mono (fun _ h c => ⟨?_, (h c).2⟩)
    (Cert.ReferenceIdeal.Value.run (F := Ideal) m' ρ')
  rw [(h c).1, Cert.ReferenceIdeal.Read.val_main_v19_eq, Cert.ReferenceIdeal.RefValue.ref_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
